-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) (main_arg6 : FVec F S64x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x64 : Shape := ⟨2, ![10000, 64]⟩
abbrev S10000x128 : Shape := ⟨2, ![10000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 82
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x64, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x1, .f32⟩
  | .hbm, ⟨71, _⟩ => ⟨S1700000x64, .f32⟩
  | .hbm, ⟨72, _⟩ => ⟨S1700000x64, .f32⟩
  | .hbm, ⟨73, _⟩ => ⟨S_, .f32⟩
  | .hbm, ⟨74, _⟩ => ⟨S100000x64, .f32⟩
  | .hbm, ⟨75, _⟩ => ⟨S1700000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S1x1, .f32⟩
  | .hbm, ⟨80, _⟩ => ⟨S100000x1, .f32⟩
  | .hbm, ⟨81, _⟩ => ⟨S100000, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x1, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S1x1600000, .i32⟩
  | .hbm, ⟨65, _⟩ => ⟨S1600000, .i32⟩
  | .hbm, ⟨66, _⟩ => ⟨S1x1600000, .i32⟩
  | .hbm, ⟨67, _⟩ => ⟨S1600000, .i32⟩
  | .hbm, ⟨68, _⟩ => ⟨S100000, .i32⟩
  | .hbm, ⟨69, _⟩ => ⟨S1700000, .i32⟩
  | .hbm, ⟨70, _⟩ => ⟨S1700000, .i32⟩
  | .hbm, ⟨71, _⟩ => ⟨S_, .f32⟩
  | .hbm, ⟨72, _⟩ => ⟨S1700000, .f32⟩
  | .hbm, ⟨73, _⟩ => ⟨S_, .f32⟩
  | .hbm, ⟨74, _⟩ => ⟨S100000, .f32⟩
  | .hbm, ⟨75, _⟩ => ⟨S1700000x1, .i32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S1700000, .f32⟩
  | .hbm, ⟨97, _⟩ => ⟨S100000x64, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .hbm, ⟨117, _⟩ => ⟨S_, .f32⟩
  | .hbm, ⟨118, _⟩ => ⟨S100000x64, .f32⟩
  | .hbm, ⟨119, _⟩ => ⟨S100000x64, .f32⟩
  | .hbm, ⟨120, _⟩ => ⟨S100000x1, .f32⟩
  | .hbm, ⟨121, _⟩ => ⟨S1x1, .f32⟩
  | .hbm, ⟨122, _⟩ => ⟨S100000x1, .f32⟩
  | .hbm, ⟨123, _⟩ => ⟨S100000x1, .f32⟩
  | .hbm, ⟨124, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_9 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_c_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call1_cst : Ref sig .tc := ⟨.hbm, 117, rfl⟩
abbrev main_call1_v0 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Stages.lean ====
/-
  The dense stages of the two-layer graph convolution, each stated once as a function of its operand arrays over the
  extended reals: the two feature transforms `h · W` (a contraction over the feature axis), the bias-and-rectifier
  `max (a + b, 0)` with the bias broadcast along the node axis, and the linear head `h · w + b`.
  They are spelt with the reference program's own host operations, so that the reference's stages are these
  functions by unfolding, and each kernel region is compared with one of them index by index.
-/
import proofs.«124524_j4123168604928_1_alg».proof.Proof.Gen.ReferenceIdeal
import Idealize.ShloMosaic.PureOps.Ideal

noncomputable section

namespace Cert.Gcn

open Cert.ReferenceIdeal Cert.ReferenceIdeal.Gen Idealize.ShloMosaic Idealize.ShloMosaic.TcCoe Idealize.SL.Sem Idealize.ShloMosaic.StableHlo

/-- First feature transform: entry (n, j) is the sum over k of x (n, k) · w (k, j), for 64 input and 128 output features. -/
def dense1 (x : (⟨S100000x64, .f32⟩ : BufTy).Contents (Elt Ideal)) (w : (⟨S64x128, .f32⟩ : BufTy).Contents (Elt Ideal)) :
    (⟨S100000x128, .f32⟩ : BufTy).Contents (Elt Ideal) :=
  Host.dotGeneral (F := Ideal) (φ₁ := .f32) (φ₂ := .f32) dot_S100000x64_S64x128_S100000x128_1_0_0_1_n_n none x w

/-- Second feature transform: entry (n, j) is the sum over k of h (n, k) · w (k, j), for 128 input and 64 output features. -/
def dense2 (h : (⟨S100000x128, .f32⟩ : BufTy).Contents (Elt Ideal)) (w : (⟨S128x64, .f32⟩ : BufTy).Contents (Elt Ideal)) :
    (⟨S100000x64, .f32⟩ : BufTy).Contents (Elt Ideal) :=
  Host.dotGeneral (F := Ideal) (φ₁ := .f32) (φ₂ := .f32) dot_S100000x128_S128x64_S100000x64_1_0_0_1_n_n none h w

/-- Bias and rectifier on 128 features: entry (n, j) is max (a (n, j) + b j, 0). -/
def biasRelu128 (a : (⟨S100000x128, .f32⟩ : BufTy).Contents (Elt Ideal)) (b : (⟨S128, .f32⟩ : BufTy).Contents (Elt Ideal)) :
    (⟨S100000x128, .f32⟩ : BufTy).Contents (Elt Ideal) :=
  maximumf (F := Ideal) (addf (F := Ideal) a (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- Bias and rectifier on 64 features: entry (n, j) is max (a (n, j) + b j, 0). -/
def biasRelu64 (a : (⟨S100000x64, .f32⟩ : BufTy).Contents (Elt Ideal)) (b : (⟨S64, .f32⟩ : BufTy).Contents (Elt Ideal)) :
    (⟨S100000x64, .f32⟩ : BufTy).Contents (Elt Ideal) :=
  maximumf (F := Ideal) (addf (F := Ideal) a (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The linear head: entry (n, 0) is the sum over k of h (n, k) · w (k, 0), plus the one bias b 0. -/
def head (h : (⟨S100000x64, .f32⟩ : BufTy).Contents (Elt Ideal)) (w : (⟨S64x1, .f32⟩ : BufTy).Contents (Elt Ideal))
    (b : (⟨S1, .f32⟩ : BufTy).Contents (Elt Ideal)) : (⟨S100000x1, .f32⟩ : BufTy).Contents (Elt Ideal) :=
  addf (F := Ideal) (Host.dotGeneral (F := Ideal) (φ₁ := .f32) (φ₂ := .f32) dot_S100000x64_S64x1_S100000x1_1_0_0_1_n_n none h w)
    (broadcastInDim S100000x1 ![0, 1] bcast_S1x1_S100000x1_0_1 (broadcastInDim S1x1 ![1] bcast_S1_S1x1_1 b))

end Cert.Gcn

end
-- ==== Proof.Network.lean ====
/-
  The two-layer graph convolution as ONE function of the eight argument arrays, over the extended reals.
  The edge list (with one self-loop appended per node) gives, once, the degree of every node by a scatter-add of ones,
  its inverse square root, and for every edge the product of that value at the edge's two ends. A layer transforms
  the node features by a matrix, then for every edge takes the transformed row of the source node scaled by the edge's
  norm and adds it into the row of the destination node (a gather, a product, a scatter-add into zeros), then adds a
  bias and takes the maximum with zero. After two layers a linear head gives one number per node, and the column is
  flattened. The aggregation steps are never opened: they are the same host operations in both programs, here
  with the transformed features left abstract, so that two arrays of transformed features that are equal give equal
  aggregates.
-/
import proofs.«124524_j4123168604928_1_alg».proof.Proof.Stages
import proofs.«124524_j4123168604928_1_alg».proof.Proof.Gen.ReferenceIdeal.Read

noncomputable section

namespace Cert.Gcn

open Cert.ReferenceIdeal Cert.ReferenceIdeal.Gen Cert.ReferenceIdeal.Read Idealize.ShloMosaic Idealize.ShloMosaic.TcCoe Idealize.SL.Sem Idealize.ShloMosaic.StableHlo

/-- First-layer aggregation of transformed features `xw` (128 per node) along the edges `e`: row d of the result is
    the sum over the edges (s, d) into d of norm (s, d) · xw s. -/
def agg128 (xw : (⟨S100000x128, .f32⟩ : BufTy).Contents (Elt Ideal)) (e : (⟨S2x1600000, .i32⟩ : BufTy).Contents (Elt Ideal)) : (⟨S100000x128, .f32⟩ : BufTy).Contents (Elt Ideal) :=
  Host.scatterAdd (F := Ideal) (φ := .f32) scatter_S100000x128_S1700000x1_S1700000x128_1_0_0_1 (val_main_v38 (F := Ideal)) (val_main_v39 (F := Ideal) e)
    (mulf (F := Ideal) (φ := .f32) (Host.gather gather_S100000x128_S1700000x1_S1700000x128_1_0_n_n_0_1_1128 xw (val_main_v33 (F := Ideal) e))
      (val_main_v36 (F := Ideal) e))

/-- Second-layer aggregation of transformed features `xw` (64 per node) along the edges `e`, the same sum. -/
def agg64 (xw : (⟨S100000x64, .f32⟩ : BufTy).Contents (Elt Ideal)) (e : (⟨S2x1600000, .i32⟩ : BufTy).Contents (Elt Ideal)) : (⟨S100000x64, .f32⟩ : BufTy).Contents (Elt Ideal) :=
  Host.scatterAdd (F := Ideal) (φ := .f32) scatter_S100000x64_S1700000x1_S1700000x64_1_0_0_1 (val_main_v83 (F := Ideal)) (val_main_v84 (F := Ideal) e)
    (mulf (F := Ideal) (φ := .f32) (Host.gather gather_S100000x64_S1700000x1_S1700000x64_1_0_n_n_0_1_164 xw (val_main_v78 (F := Ideal) e))
      (val_main_v81 (F := Ideal) e))

/-- The first layer's output: rectified, biased aggregate of x · W1. -/
def layer1 (x : (⟨S100000x64, .f32⟩ : BufTy).Contents (Elt Ideal)) (e : (⟨S2x1600000, .i32⟩ : BufTy).Contents (Elt Ideal)) (w1 : (⟨S64x128, .f32⟩ : BufTy).Contents (Elt Ideal)) (b1 : (⟨S128, .f32⟩ : BufTy).Contents (Elt Ideal)) :
    (⟨S100000x128, .f32⟩ : BufTy).Contents (Elt Ideal) :=
  biasRelu128 (agg128 (dense1 x w1) e) b1

/-- The second layer's output from the first's: rectified, biased aggregate of h · W2. -/
def layer2 (h : (⟨S100000x128, .f32⟩ : BufTy).Contents (Elt Ideal)) (e : (⟨S2x1600000, .i32⟩ : BufTy).Contents (Elt Ideal)) (w2 : (⟨S128x64, .f32⟩ : BufTy).Contents (Elt Ideal)) (b2 : (⟨S64, .f32⟩ : BufTy).Contents (Elt Ideal)) :
    (⟨S100000x64, .f32⟩ : BufTy).Contents (Elt Ideal) :=
  biasRelu64 (agg64 (dense2 h w2) e) b2

/-- The network: two layers, the linear head, the column flattened to one number per node. -/
def network (x : (⟨S100000x64, .f32⟩ : BufTy).Contents (Elt Ideal)) (e : (⟨S2x1600000, .i32⟩ : BufTy).Contents (Elt Ideal)) (w1 : (⟨S64x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) (wfc : (⟨S64x1, .f32⟩ : BufTy).Contents (Elt Ideal)) (bfc : (⟨S1, .f32⟩ : BufTy).Contents (Elt Ideal)) : (⟨S100000, .f32⟩ : BufTy).Contents (Elt Ideal) :=
  shapeCast _ (head (layer2 (layer1 x e w1 b1) e w2 b2) wfc bfc) shapeCasts_S100000x1_S100000

/-- The reference's first rectified stage is the first layer: its operations are the layer's, one by one. -/
theorem reference_layer1 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) :
    val_main_v44 (F := Ideal) x0 x1 x2 x3 = layer1 x0 x1 x2 x3 := rfl

/-- The reference's second rectified stage is the second layer applied to its first. -/
theorem reference_layer2 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v89 (F := Ideal) x0 x1 x2 x3 x4 x5 = layer2 (val_main_v44 (F := Ideal) x0 x1 x2 x3) x1 x4 x5 := rfl

/-- The reference's result is the network of its arguments. -/
theorem reference_network (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) :
    val_main_v94 (F := Ideal) x0 x1 x2 x3 x4 x5 x6 x7 = network x0 x1 x2 x3 x4 x5 x6 x7 := by
  have h : val_main_v94 (F := Ideal) x0 x1 x2 x3 x4 x5 x6 x7
      = shapeCast _ (head (val_main_v89 (F := Ideal) x0 x1 x2 x3 x4 x5) x6 x7) shapeCasts_S100000x1_S100000 := rfl
  rw [h, reference_layer2, reference_layer1]
  rfl

end Cert.Gcn

end
-- ==== Proof.KernelRun.lean ====
/-
  The idealized kernel program's run, with its result named. The program is ten segments in order — a stretch of host
  operations, a pipelined region, a stretch, two regions, a stretch, a region, a stretch, a region, a last stretch —
  and the contents of every unscoped buffer at each boundary are a fold from the launch memory: a stretch applies its
  operations in order, a region leaves its output array at what its write-backs fold to and every other buffer as it
  was. Every weakly fair execution terminates without a fault in a state whose unscoped buffers hold the last
  boundary's contents; read at the result buffer that is the program's value, and read at an argument it is the
  launch contents, because no segment writes an argument.
-/
import proofs.«124524_j4123168604928_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the library's theorem on runs of a list of segments are found by unifying its
-- conclusion with this statement, which takes unfolding plain definitions in a metavariable's type
set_option backward.isDefEq.respectTransparency.types false in
/-- The run of the ten segments from any launch memory with zero counters: the result buffer ends at the last
    boundary's contents, and the eight argument arrays end as launched. -/
theorem run_result : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v61 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Run

end
-- ==== Proof.KernelBoundaries.lean ====
/-
  What the idealized kernel program's buffers hold at each boundary between its segments, read back to the launch
  memory. The contents at a boundary are a fold: a stretch of host operations applies them in order, a pipelined
  region replaces its own arrays and leaves every other buffer alone. Three kinds of fact are read off the fold.
  (1) A buffer that a segment does not write holds after it what it held before: the seven float arguments, and
  the three arrays computed once from the edge list (source ends, destination ends, and the edge norm), are carried
  in this way to the segments that consume them. (2) What a stretch computes: the first stretch's three edge arrays
  are the reference's own stages of the edge list; the stretch after a feature transform gathers the transformed rows
  by source, scales them by the edge norm and adds them by destination, which is the aggregation of the transformed
  features; a bias reshaped to one row holds b j at (0, j). (3) The last stretch flattens the head's column.
-/
import proofs.«124524_j4123168604928_1_alg».proof.Proof.Gen.KernelIdeal.Frame
import proofs.«124524_j4123168604928_1_alg».proof.Proof.Network
import Idealize.ShloMosaic.Lib.StableHlo.Run
import Idealize.ShloMosaic.Lib.Pipeline.Value
import Idealize.ShloMosaic.Lib.ValueIdx

noncomputable section

namespace Cert.KernelIdeal.Boundaries

open Cert.KernelIdeal Cert.KernelIdeal.Gen Idealize.ShloMosaic Idealize.ShloMosaic.TcCoe Idealize.SL.Sem Idealize.ShloMosaic.StableHlo Idealize.ShloMosaic.ValueIdx
open Cert.ReferenceIdeal.Read (val_main_v5 val_main_v6 val_main_v26)

variable (m : (ℓ : Loc nD τ sig) → Buf (Elt Ideal) ℓ) (ρ : Dev nD → PrngReg) (c : Dev nD)

/-- No operation of the named stretch writes the buffer, so the fold over the stretch leaves it as it was: the
    buffer differs from each operation's result buffer, one inequality of references per operation. -/
macro "stretch_keeps" ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## The arguments, carried from the launch to where they are read -/

/-! After the first stretch (it writes only its own intermediate arrays). -/
theorem arg0_at1 : W1 m ρ c (Proc.devRef .tc main_arg0) = m ((c : Thread nD τ).loc main_arg0) := by
  show StableHlo.after hostOps0 (W0 m ρ c) (Proc.devRef .tc main_arg0) = W0 m ρ c (Proc.devRef .tc main_arg0)
  stretch_keeps hostOps0
theorem arg2_at1 : W1 m ρ c (Proc.devRef .tc main_arg2) = m ((c : Thread nD τ).loc main_arg2) := by
  show StableHlo.after hostOps0 (W0 m ρ c) (Proc.devRef .tc main_arg2) = W0 m ρ c (Proc.devRef .tc main_arg2)
  stretch_keeps hostOps0
theorem arg3_at1 : W1 m ρ c (Proc.devRef .tc main_arg3) = m ((c : Thread nD τ).loc main_arg3) := by
  show StableHlo.after hostOps0 (W0 m ρ c) (Proc.devRef .tc main_arg3) = W0 m ρ c (Proc.devRef .tc main_arg3)
  stretch_keeps hostOps0
theorem arg4_at1 : W1 m ρ c (Proc.devRef .tc main_arg4) = m ((c : Thread nD τ).loc main_arg4) := by
  show StableHlo.after hostOps0 (W0 m ρ c) (Proc.devRef .tc main_arg4) = W0 m ρ c (Proc.devRef .tc main_arg4)
  stretch_keeps hostOps0
theorem arg5_at1 : W1 m ρ c (Proc.devRef .tc main_arg5) = m ((c : Thread nD τ).loc main_arg5) := by
  show StableHlo.after hostOps0 (W0 m ρ c) (Proc.devRef .tc main_arg5) = W0 m ρ c (Proc.devRef .tc main_arg5)
  stretch_keeps hostOps0
theorem arg6_at1 : W1 m ρ c (Proc.devRef .tc main_arg6) = m ((c : Thread nD τ).loc main_arg6) := by
  show StableHlo.after hostOps0 (W0 m ρ c) (Proc.devRef .tc main_arg6) = W0 m ρ c (Proc.devRef .tc main_arg6)
  stretch_keeps hostOps0
theorem arg7_at1 : W1 m ρ c (Proc.devRef .tc main_arg7) = m ((c : Thread nD τ).loc main_arg7) := by
  show StableHlo.after hostOps0 (W0 m ρ c) (Proc.devRef .tc main_arg7) = W0 m ρ c (Proc.devRef .tc main_arg7)
  stretch_keeps hostOps0

/-! After the first feature transform (its arrays are x, W1 and its own output). -/
theorem arg3_at2 : W2 m ρ c (Proc.devRef .tc main_arg3) = m ((c : Thread nD τ).loc main_arg3) :=
  (W2_of_ne m ρ c main_arg3 (by decide)).trans (arg3_at1 m ρ c)
theorem arg4_at2 : W2 m ρ c (Proc.devRef .tc main_arg4) = m ((c : Thread nD τ).loc main_arg4) :=
  (W2_of_ne m ρ c main_arg4 (by decide)).trans (arg4_at1 m ρ c)
theorem arg5_at2 : W2 m ρ c (Proc.devRef .tc main_arg5) = m ((c : Thread nD τ).loc main_arg5) :=
  (W2_of_ne m ρ c main_arg5 (by decide)).trans (arg5_at1 m ρ c)
theorem arg6_at2 : W2 m ρ c (Proc.devRef .tc main_arg6) = m ((c : Thread nD τ).loc main_arg6) :=
  (W2_of_ne m ρ c main_arg6 (by decide)).trans (arg6_at1 m ρ c)
theorem arg7_at2 : W2 m ρ c (Proc.devRef .tc main_arg7) = m ((c : Thread nD τ).loc main_arg7) :=
  (W2_of_ne m ρ c main_arg7 (by decide)).trans (arg7_at1 m ρ c)

/-! After the first aggregation stretch. -/
theorem arg4_at3 : W3 m ρ c (Proc.devRef .tc main_arg4) = m ((c : Thread nD τ).loc main_arg4) :=
  (show StableHlo.after hostOps1 (W2 m ρ c) (Proc.devRef .tc main_arg4) = W2 m ρ c (Proc.devRef .tc main_arg4) by
    stretch_keeps hostOps1).trans (arg4_at2 m ρ c)
theorem arg5_at3 : W3 m ρ c (Proc.devRef .tc main_arg5) = m ((c : Thread nD τ).loc main_arg5) :=
  (show StableHlo.after hostOps1 (W2 m ρ c) (Proc.devRef .tc main_arg5) = W2 m ρ c (Proc.devRef .tc main_arg5) by
    stretch_keeps hostOps1).trans (arg5_at2 m ρ c)
theorem arg6_at3 : W3 m ρ c (Proc.devRef .tc main_arg6) = m ((c : Thread nD τ).loc main_arg6) :=
  (show StableHlo.after hostOps1 (W2 m ρ c) (Proc.devRef .tc main_arg6) = W2 m ρ c (Proc.devRef .tc main_arg6) by
    stretch_keeps hostOps1).trans (arg6_at2 m ρ c)
theorem arg7_at3 : W3 m ρ c (Proc.devRef .tc main_arg7) = m ((c : Thread nD τ).loc main_arg7) :=
  (show StableHlo.after hostOps1 (W2 m ρ c) (Proc.devRef .tc main_arg7) = W2 m ρ c (Proc.devRef .tc main_arg7) by
    stretch_keeps hostOps1).trans (arg7_at2 m ρ c)

/-! After the first bias-and-rectifier region (its arrays are the aggregate, the bias row and its output). -/
theorem arg4_at4 : W4 m ρ c (Proc.devRef .tc main_arg4) = m ((c : Thread nD τ).loc main_arg4) :=
  (W4_of_ne m ρ c main_arg4 (by decide)).trans (arg4_at3 m ρ c)
theorem arg5_at4 : W4 m ρ c (Proc.devRef .tc main_arg5) = m ((c : Thread nD τ).loc main_arg5) :=
  (W4_of_ne m ρ c main_arg5 (by decide)).trans (arg5_at3 m ρ c)
theorem arg6_at4 : W4 m ρ c (Proc.devRef .tc main_arg6) = m ((c : Thread nD τ).loc main_arg6) :=
  (W4_of_ne m ρ c main_arg6 (by decide)).trans (arg6_at3 m ρ c)
theorem arg7_at4 : W4 m ρ c (Proc.devRef .tc main_arg7) = m ((c : Thread nD τ).loc main_arg7) :=
  (W4_of_ne m ρ c main_arg7 (by decide)).trans (arg7_at3 m ρ c)

/-! After the second feature transform (its arrays are the first layer's output, W2 and its own output). -/
theorem arg5_at5 : W5 m ρ c (Proc.devRef .tc main_arg5) = m ((c : Thread nD τ).loc main_arg5) :=
  (W5_of_ne m ρ c main_arg5 (by decide)).trans (arg5_at4 m ρ c)
theorem arg6_at5 : W5 m ρ c (Proc.devRef .tc main_arg6) = m ((c : Thread nD τ).loc main_arg6) :=
  (W5_of_ne m ρ c main_arg6 (by decide)).trans (arg6_at4 m ρ c)
theorem arg7_at5 : W5 m ρ c (Proc.devRef .tc main_arg7) = m ((c : Thread nD τ).loc main_arg7) :=
  (W5_of_ne m ρ c main_arg7 (by decide)).trans (arg7_at4 m ρ c)

/-! After the second aggregation stretch. -/
theorem arg6_at6 : W6 m ρ c (Proc.devRef .tc main_arg6) = m ((c : Thread nD τ).loc main_arg6) :=
  (show StableHlo.after hostOps3 (W5 m ρ c) (Proc.devRef .tc main_arg6) = W5 m ρ c (Proc.devRef .tc main_arg6) by
    stretch_keeps hostOps3).trans (arg6_at5 m ρ c)
theorem arg7_at6 : W6 m ρ c (Proc.devRef .tc main_arg7) = m ((c : Thread nD τ).loc main_arg7) :=
  (show StableHlo.after hostOps3 (W5 m ρ c) (Proc.devRef .tc main_arg7) = W5 m ρ c (Proc.devRef .tc main_arg7) by
    stretch_keeps hostOps3).trans (arg7_at5 m ρ c)

/-! After the second bias-and-rectifier region. -/
theorem arg6_at7 : W7 m ρ c (Proc.devRef .tc main_arg6) = m ((c : Thread nD τ).loc main_arg6) :=
  (W7_of_ne m ρ c main_arg6 (by decide)).trans (arg6_at6 m ρ c)
theorem arg7_at7 : W7 m ρ c (Proc.devRef .tc main_arg7) = m ((c : Thread nD τ).loc main_arg7) :=
  (W7_of_ne m ρ c main_arg7 (by decide)).trans (arg7_at6 m ρ c)

/-! After the stretch that reshapes the head's bias. -/
theorem arg6_at8 : W8 m ρ c (Proc.devRef .tc main_arg6) = m ((c : Thread nD τ).loc main_arg6) :=
  (show StableHlo.after hostOps4 (W7 m ρ c) (Proc.devRef .tc main_arg6) = W7 m ρ c (Proc.devRef .tc main_arg6) by
    stretch_keeps hostOps4).trans (arg6_at7 m ρ c)

/-! ## The three arrays computed once from the edge list -/

/-- The source ends of the edges with the self-loops appended: the reference's stage of the edge list. -/
theorem src_at1 : W1 m ρ c (Proc.devRef .tc main_v5) = val_main_v5 (F := Ideal) (m ((c : Thread nD τ).loc main_arg1)) := by
  show StableHlo.after hostOps0 (W0 m ρ c) (Proc.devRef .tc main_v5) = _
  after_results_simp
  rfl
/-- The destination ends likewise. -/
theorem dst_at1 : W1 m ρ c (Proc.devRef .tc main_v6) = val_main_v6 (F := Ideal) (m ((c : Thread nD τ).loc main_arg1)) := by
  show StableHlo.after hostOps0 (W0 m ρ c) (Proc.devRef .tc main_v6) = _
  after_results_simp
  rfl
/-- The edge norm: the inverse square root of the degree at the source times that at the destination, the degree a
    scatter-add of ones by destination. The same operations of the edge list as the reference's stage. -/
theorem norm_at1 : W1 m ρ c (Proc.devRef .tc main_v26) = val_main_v26 (F := Ideal) (m ((c : Thread nD τ).loc main_arg1)) := by
  show StableHlo.after hostOps0 (W0 m ρ c) (Proc.devRef .tc main_v26) = _
  after_results_simp
  rfl

/-! The first feature transform leaves them alone. -/
theorem src_at2 : W2 m ρ c (Proc.devRef .tc main_v5) = val_main_v5 (F := Ideal) (m ((c : Thread nD τ).loc main_arg1)) :=
  (W2_of_ne m ρ c main_v5 (by decide)).trans (src_at1 m ρ c)
theorem dst_at2 : W2 m ρ c (Proc.devRef .tc main_v6) = val_main_v6 (F := Ideal) (m ((c : Thread nD τ).loc main_arg1)) :=
  (W2_of_ne m ρ c main_v6 (by decide)).trans (dst_at1 m ρ c)
theorem norm_at2 : W2 m ρ c (Proc.devRef .tc main_v26) = val_main_v26 (F := Ideal) (m ((c : Thread nD τ).loc main_arg1)) :=
  (W2_of_ne m ρ c main_v26 (by decide)).trans (norm_at1 m ρ c)

/-! So do the first aggregation stretch and the two regions after it: they are still there for the second layer. -/
theorem src_at5 : W5 m ρ c (Proc.devRef .tc main_v5) = val_main_v5 (F := Ideal) (m ((c : Thread nD τ).loc main_arg1)) :=
  (W5_of_ne m ρ c main_v5 (by decide)).trans ((W4_of_ne m ρ c main_v5 (by decide)).trans
    ((show StableHlo.after hostOps1 (W2 m ρ c) (Proc.devRef .tc main_v5) = W2 m ρ c (Proc.devRef .tc main_v5) by
      stretch_keeps hostOps1).trans (src_at2 m ρ c)))
theorem dst_at5 : W5 m ρ c (Proc.devRef .tc main_v6) = val_main_v6 (F := Ideal) (m ((c : Thread nD τ).loc main_arg1)) :=
  (W5_of_ne m ρ c main_v6 (by decide)).trans ((W4_of_ne m ρ c main_v6 (by decide)).trans
    ((show StableHlo.after hostOps1 (W2 m ρ c) (Proc.devRef .tc main_v6) = W2 m ρ c (Proc.devRef .tc main_v6) by
      stretch_keeps hostOps1).trans (dst_at2 m ρ c)))
theorem norm_at5 : W5 m ρ c (Proc.devRef .tc main_v26) = val_main_v26 (F := Ideal) (m ((c : Thread nD τ).loc main_arg1)) :=
  (W5_of_ne m ρ c main_v26 (by decide)).trans ((W4_of_ne m ρ c main_v26 (by decide)).trans
    ((show StableHlo.after hostOps1 (W2 m ρ c) (Proc.devRef .tc main_v26) = W2 m ρ c (Proc.devRef .tc main_v26) by
      stretch_keeps hostOps1).trans (norm_at2 m ρ c)))

/-! ## What the aggregation stretches compute -/

/-- The first aggregate, as the first bias-and-rectifier region finds it: the aggregation of the first transform's
    output along the edges. -/
theorem agg1_at3 : W3 m ρ c (Proc.devRef .tc main_v40)
    = Cert.Gcn.agg128 (W2 m ρ c (Proc.devRef .tc main_v27)) (m ((c : Thread nD τ).loc main_arg1)) := by
  show StableHlo.after hostOps1 (W2 m ρ c) (Proc.devRef .tc main_v40) = _
  after_results_simp
  rw [src_at2, dst_at2, norm_at2]
  rfl

/-- The first bias as that region finds it: reshaped to one row, it holds b j at (0, j). -/
theorem bias1_at3 (j : Fin 128) :
    W3 m ρ c (Proc.devRef .tc main_v41) (ix2 (0 : Fin 1) j) = m ((c : Thread nD τ).loc main_arg3) (ix1 j) := by
  have e : W3 m ρ c (Proc.devRef .tc main_v41)
      = shapeCast S1x128 (W2 m ρ c (Proc.devRef .tc main_arg3)) shapeCasts_S128_S1x128 := by
    show StableHlo.after hostOps1 (W2 m ρ c) (Proc.devRef .tc main_v41) = _
    after_results_simp
    rfl
  rw [e, arg3_at2]
  exact shapeCast_apply _ shapeCasts_S128_S1x128 (ix2 (0 : Fin 1) j) (ix1 j)
    (by rewrite [Shape.rowMajor_val_two, Shape.rowMajor_val_one]; show j.val = 0 * 128 + j.val; omega)

/-- The second aggregate, as the second bias-and-rectifier region finds it: the aggregation of the second transform's
    output along the same edges, with the same norm (the reference recomputes the edge arrays for its second layer:
    the same operations of the same edge list). -/
theorem agg2_at6 : W6 m ρ c (Proc.devRef .tc main_v56)
    = Cert.Gcn.agg64 (W5 m ρ c (Proc.devRef .tc main_v43)) (m ((c : Thread nD τ).loc main_arg1)) := by
  show StableHlo.after hostOps3 (W5 m ρ c) (Proc.devRef .tc main_v56) = _
  after_results_simp
  rw [src_at5, dst_at5, norm_at5]
  rfl

/-- The second bias as that region finds it: reshaped to one row, it holds b j at (0, j). -/
theorem bias2_at6 (j : Fin 64) :
    W6 m ρ c (Proc.devRef .tc main_v57) (ix2 (0 : Fin 1) j) = m ((c : Thread nD τ).loc main_arg5) (ix1 j) := by
  have e : W6 m ρ c (Proc.devRef .tc main_v57)
      = shapeCast S1x64 (W5 m ρ c (Proc.devRef .tc main_arg5)) shapeCasts_S64_S1x64 := by
    show StableHlo.after hostOps3 (W5 m ρ c) (Proc.devRef .tc main_v57) = _
    after_results_simp
    rfl
  rw [e, arg5_at5]
  exact shapeCast_apply _ shapeCasts_S64_S1x64 (ix2 (0 : Fin 1) j) (ix1 j)
    (by rewrite [Shape.rowMajor_val_two, Shape.rowMajor_val_one]; show j.val = 0 * 64 + j.val; omega)

/-! ## Around the head -/

/-- The second layer's output is still there when the head reads it. -/
theorem hidden_at8 : W8 m ρ c (Proc.devRef .tc main_v58) = W7 m ρ c (Proc.devRef .tc main_v58) := by
  show StableHlo.after hostOps4 (W7 m ρ c) (Proc.devRef .tc main_v58) = W7 m ρ c (Proc.devRef .tc main_v58)
  stretch_keeps hostOps4

/-- The head's bias as the head finds it: reshaped to one entry, it holds b 0. -/
theorem bias3_at8 :
    W8 m ρ c (Proc.devRef .tc main_v59) (ix2 (0 : Fin 1) (0 : Fin 1)) = m ((c : Thread nD τ).loc main_arg7) (ix1 (0 : Fin 1)) := by
  have e : W8 m ρ c (Proc.devRef .tc main_v59)
      = shapeCast S1x1 (W7 m ρ c (Proc.devRef .tc main_arg7)) shapeCasts_S1_S1x1 := by
    show StableHlo.after hostOps4 (W7 m ρ c) (Proc.devRef .tc main_v59) = _
    after_results_simp
    rfl
  rw [e, arg7_at7]
  exact shapeCast_apply _ shapeCasts_S1_S1x1 (ix2 (0 : Fin 1) (0 : Fin 1)) (ix1 (0 : Fin 1))
    (by rewrite [Shape.rowMajor_val_two, Shape.rowMajor_val_one]; rfl)

/-- The result: the head's column, flattened. -/
theorem result_at10 : W10 m ρ c (Proc.devRef .tc main_v61)
    = shapeCast S100000 (W9 m ρ c (Proc.devRef .tc main_v60)) shapeCasts_S100000x1_S100000 := by
  show StableHlo.after hostOps5 (W9 m ρ c) (Proc.devRef .tc main_v61) = _
  after_results_simp
  rfl

end Cert.KernelIdeal.Boundaries

end
-- ==== Proof.RegionDense.lean ====
/-
  The two plain feature transforms of the graph convolution, block by block.

  Each of the two regions walks a grid of ten points over the 100000 rows of its left operand. At point t it loads the
  block of rows 10000·t … 10000·t + 9999 of the left operand and the whole right operand, forms their matrix product
  into a zero accumulator (after a rounding of both operands that is the identity over the extended reals), and writes
  the result back as the block of the same rows of the output. So entry (p, q) of the block written at point t is

      ∑ k, lhs (10000·t + p, k) · rhs (k, q),

  which is entry (10000·t + p, q) of the one whole-array contraction of the reference, because 0 + s = s and the
  contraction reads a row of the left operand and a column of the right operand only. The ten blocks cover every row
  (row r lies in the block of point r / 10000), so after the region the output array is the whole product.

  Layout of the file: first the operand indices of the four contractions involved (the two block products and the two
  whole-array products), then each product read at an entry as a sum over the contracted axis, then per region: the
  block indices over the grid, what a point writes back, which entries a block holds, the cover, and the array.
-/
import proofs.«124524_j4123168604928_1_alg».proof.Proof.Stages
import proofs.«124524_j4123168604928_1_alg».proof.Proof.Gen.KernelIdeal.Frame
import Idealize.ShloMosaic.Lib.Pipeline.Value
import Idealize.ShloMosaic.Lib.ValueIdx
import Idealize.ShloMosaic.PureOps.Ideal.Laws

noncomputable section
namespace Cert.KernelIdeal.Regions
open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-! ## The contractions at an entry -/

/-- The offset of a store or load of a whole staging buffer: zero on both axes. -/
theorem origin_eq_zero : (![0, 0] : Fin 2 → Nat) = fun _ => 0 := funext fun a => by fin_cases a <;> rfl

/-- The left operand's index of the 10000×64 by 64×128 product at output entry (p, q) and contraction position k is (p, k):
    the row axis is the output's first axis, the contracted axis carries k. -/
theorem blockDot1_lhs (p : Fin 10000) (q : Fin 128) (k : Fin 64) :
    dot_S10000x64_S64x128_S10000x128_1_0_0_1_n_n.lhsIdx (ix2 p q) ((contrEquiv1 dot_S10000x64_S64x128_S10000x128_1_0_0_1_n_n 64 rfl rfl).symm k) = ix2 p k := by
  have h0 : ∀ (i : (⟨2, ![10000, 128]⟩ : Shape).Idx) (κ : dot_S10000x64_S64x128_S10000x128_1_0_0_1_n_n.contr.Idx), (dot_S10000x64_S64x128_S10000x128_1_0_0_1_n_n.lhsIdx i κ 0).val = (i 0).val := by
    intro i κ
    unfold DotDims.lhsIdx
    rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
    rfl
  have h1 : ∀ (i : (⟨2, ![10000, 128]⟩ : Shape).Idx) (κ : dot_S10000x64_S64x128_S10000x128_1_0_0_1_n_n.contr.Idx), (dot_S10000x64_S64x128_S10000x128_1_0_0_1_n_n.lhsIdx i κ 1).val = (κ ⟨0, by decide⟩).val :=
    fun i κ => dot_S10000x64_S64x128_S10000x128_1_0_0_1_n_n.lhsIdx_val_of_single rfl i κ
  have hk := contrEquiv1_symm_val dot_S10000x64_S64x128_S10000x128_1_0_0_1_n_n 64 rfl rfl k
  exact funext fun a => Fin.ext (by
    match a with
    | ⟨0, _⟩ => exact h0 _ _
    | ⟨1, _⟩ => exact (h1 _ _).trans hk)

/-- The right operand's index there is (k, q): the contracted axis carries k, the column axis is the output's second axis. -/
theorem blockDot1_rhs (p : Fin 10000) (q : Fin 128) (k : Fin 64) :
    dot_S10000x64_S64x128_S10000x128_1_0_0_1_n_n.rhsIdx (ix2 p q) ((contrEquiv1 dot_S10000x64_S64x128_S10000x128_1_0_0_1_n_n 64 rfl rfl).symm k) = ix2 k q := by
  have h0 : ∀ (i : (⟨2, ![10000, 128]⟩ : Shape).Idx) (κ : dot_S10000x64_S64x128_S10000x128_1_0_0_1_n_n.contr.Idx), (dot_S10000x64_S64x128_S10000x128_1_0_0_1_n_n.rhsIdx i κ 0).val = (κ ⟨0, by decide⟩).val :=
    fun i κ => dot_S10000x64_S64x128_S10000x128_1_0_0_1_n_n.rhsIdx_val_of_single rfl i κ
  have h1 : ∀ (i : (⟨2, ![10000, 128]⟩ : Shape).Idx) (κ : dot_S10000x64_S64x128_S10000x128_1_0_0_1_n_n.contr.Idx), (dot_S10000x64_S64x128_S10000x128_1_0_0_1_n_n.rhsIdx i κ 1).val = (i 1).val := by
    intro i κ
    unfold DotDims.rhsIdx
    rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
    rfl
  have hk := contrEquiv1_symm_val dot_S10000x64_S64x128_S10000x128_1_0_0_1_n_n 64 rfl rfl k
  exact funext fun a => Fin.ext (by
    match a with
    | ⟨0, _⟩ => exact (h0 _ _).trans hk
    | ⟨1, _⟩ => exact h1 _ _)

/-- The body's payload of the first transform at entry (p, q) of a block: both operands pass a rounding that is the
    identity over the extended reals, and the product accumulates into zero, so the entry is the plain sum over k. -/
theorem blockProduct1_apply (x0 : Vec Ideal S10000x64 .f32) (x1 : Vec Ideal S64x128 .f32) (p : Fin 10000) (q : Fin 128) :
    k0_pay1 (F := Ideal) x0 x1 (ix2 p q) = ∑ k : Fin 64, x0 (ix2 p k) * x1 (ix2 k q) := by
  unfold k0_pay1
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  rw [blockDot1_lhs, blockDot1_rhs]
  rfl

/-- The left operand's index of the 100000×64 by 64×128 product at output entry (p, q) and contraction position k is (p, k):
    the row axis is the output's first axis, the contracted axis carries k. -/
theorem wholeDot1_lhs (p : Fin 100000) (q : Fin 128) (k : Fin 64) :
    Cert.ReferenceIdeal.dot_S100000x64_S64x128_S100000x128_1_0_0_1_n_n.lhsIdx (ix2 p q) ((contrEquiv1 Cert.ReferenceIdeal.dot_S100000x64_S64x128_S100000x128_1_0_0_1_n_n 64 rfl rfl).symm k) = ix2 p k := by
  have h0 : ∀ (i : (⟨2, ![100000, 128]⟩ : Shape).Idx) (κ : Cert.ReferenceIdeal.dot_S100000x64_S64x128_S100000x128_1_0_0_1_n_n.contr.Idx), (Cert.ReferenceIdeal.dot_S100000x64_S64x128_S100000x128_1_0_0_1_n_n.lhsIdx i κ 0).val = (i 0).val := by
    intro i κ
    unfold DotDims.lhsIdx
    rw [dif_neg (show ¬(0 : Fin S100000x64.rank) ∈ Cert.ReferenceIdeal.dot_S100000x64_S64x128_S100000x128_1_0_0_1_n_n.lhsBatch by decide), dif_pos (show (0 : Fin S100000x64.rank) ∈ Cert.ReferenceIdeal.dot_S100000x64_S64x128_S100000x128_1_0_0_1_n_n.lhsNonContracting by decide)]
    rfl
  have h1 : ∀ (i : (⟨2, ![100000, 128]⟩ : Shape).Idx) (κ : Cert.ReferenceIdeal.dot_S100000x64_S64x128_S100000x128_1_0_0_1_n_n.contr.Idx), (Cert.ReferenceIdeal.dot_S100000x64_S64x128_S100000x128_1_0_0_1_n_n.lhsIdx i κ 1).val = (κ ⟨0, by decide⟩).val :=
    fun i κ => Cert.ReferenceIdeal.dot_S100000x64_S64x128_S100000x128_1_0_0_1_n_n.lhsIdx_val_of_single rfl i κ
  have hk := contrEquiv1_symm_val Cert.ReferenceIdeal.dot_S100000x64_S64x128_S100000x128_1_0_0_1_n_n 64 rfl rfl k
  exact funext fun a => Fin.ext (by
    match a with
    | ⟨0, _⟩ => exact h0 _ _
    | ⟨1, _⟩ => exact (h1 _ _).trans hk)

/-- The right operand's index there is (k, q): the contracted axis carries k, the column axis is the output's second axis. -/
theorem wholeDot1_rhs (p : Fin 100000) (q : Fin 128) (k : Fin 64) :
    Cert.ReferenceIdeal.dot_S100000x64_S64x128_S100000x128_1_0_0_1_n_n.rhsIdx (ix2 p q) ((contrEquiv1 Cert.ReferenceIdeal.dot_S100000x64_S64x128_S100000x128_1_0_0_1_n_n 64 rfl rfl).symm k) = ix2 k q := by
  have h0 : ∀ (i : (⟨2, ![100000, 128]⟩ : Shape).Idx) (κ : Cert.ReferenceIdeal.dot_S100000x64_S64x128_S100000x128_1_0_0_1_n_n.contr.Idx), (Cert.ReferenceIdeal.dot_S100000x64_S64x128_S100000x128_1_0_0_1_n_n.rhsIdx i κ 0).val = (κ ⟨0, by decide⟩).val :=
    fun i κ => Cert.ReferenceIdeal.dot_S100000x64_S64x128_S100000x128_1_0_0_1_n_n.rhsIdx_val_of_single rfl i κ
  have h1 : ∀ (i : (⟨2, ![100000, 128]⟩ : Shape).Idx) (κ : Cert.ReferenceIdeal.dot_S100000x64_S64x128_S100000x128_1_0_0_1_n_n.contr.Idx), (Cert.ReferenceIdeal.dot_S100000x64_S64x128_S100000x128_1_0_0_1_n_n.rhsIdx i κ 1).val = (i 1).val := by
    intro i κ
    unfold DotDims.rhsIdx
    rw [dif_neg (show ¬(1 : Fin S64x128.rank) ∈ Cert.ReferenceIdeal.dot_S100000x64_S64x128_S100000x128_1_0_0_1_n_n.rhsBatch by decide), dif_pos (show (1 : Fin S64x128.rank) ∈ Cert.ReferenceIdeal.dot_S100000x64_S64x128_S100000x128_1_0_0_1_n_n.rhsNonContracting by decide)]
    rfl
  have hk := contrEquiv1_symm_val Cert.ReferenceIdeal.dot_S100000x64_S64x128_S100000x128_1_0_0_1_n_n 64 rfl rfl k
  exact funext fun a => Fin.ext (by
    match a with
    | ⟨0, _⟩ => exact (h0 _ _).trans hk
    | ⟨1, _⟩ => exact h1 _ _)

/-- The first feature transform at entry (r, q) of the whole array: the sum over k of x (r, k) · w (k, q). -/
theorem dense1_apply (x : (⟨S100000x64, .f32⟩ : BufTy).Contents (Elt Ideal)) (w : (⟨S64x128, .f32⟩ : BufTy).Contents (Elt Ideal))
    (r : Fin 100000) (q : Fin 128) :
    Cert.Gcn.dense1 x w (ix2 r q) = ∑ k : Fin 64, x (ix2 r k) * w (ix2 k q) := by
  unfold Cert.Gcn.dense1
  simp only [Host.dotGeneral]
  rw [Ideal.dotGeneral_apply, ← Equiv.sum_comp (contrEquiv1 Cert.ReferenceIdeal.dot_S100000x64_S64x128_S100000x128_1_0_0_1_n_n 64 rfl rfl).symm]
  refine Finset.sum_congr rfl fun k _ => ?_
  rw [wholeDot1_lhs, wholeDot1_rhs]

/-- One entry of one block: when the loaded left block holds rows 10000·t … 10000·t + 9999 of x and the loaded right
    block is all of w, entry y of the body's payload is entry i of the whole transform, where i is y moved down by 10000·t rows. -/
theorem region0_entry (x : (⟨S100000x64, .f32⟩ : BufTy).Contents (Elt Ideal)) (w : (⟨S64x128, .f32⟩ : BufTy).Contents (Elt Ideal))
    (t : Nat) (x0 : Vec Ideal S10000x64 .f32) (x1 : Vec Ideal S64x128 .f32)
    (hx0 : ∀ (p : Fin 10000) (k : Fin 64) (r : Fin 100000), r.val = 10000 * t + p.val → x0 (ix2 p k) = x (ix2 r k))
    (hx1 : ∀ (k : Fin 64) (q : Fin 128), x1 (ix2 k q) = w (ix2 k q))
    (y : S10000x128.Idx) (i : S100000x128.Idx) (h0 : (i 0).val = 10000 * t + (y 0).val) (h1 : (i 1).val = (y 1).val) :
    k0_pay1 (F := Ideal) x0 x1 y = Cert.Gcn.dense1 x w i := by
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext h1
  rw [blockProduct1_apply, dense1_apply]
  exact Finset.sum_congr rfl fun k _ => by rw [hx0 p k r h0, hx1 k q']

/-- The left operand's index of the 10000×128 by 128×64 product at output entry (p, q) and contraction position k is (p, k):
    the row axis is the output's first axis, the contracted axis carries k. -/
theorem blockDot2_lhs (p : Fin 10000) (q : Fin 64) (k : Fin 128) :
    dot_S10000x128_S128x64_S10000x64_1_0_0_1_n_n.lhsIdx (ix2 p q) ((contrEquiv1 dot_S10000x128_S128x64_S10000x64_1_0_0_1_n_n 128 rfl rfl).symm k) = ix2 p k := by
  have h0 : ∀ (i : (⟨2, ![10000, 64]⟩ : Shape).Idx) (κ : dot_S10000x128_S128x64_S10000x64_1_0_0_1_n_n.contr.Idx), (dot_S10000x128_S128x64_S10000x64_1_0_0_1_n_n.lhsIdx i κ 0).val = (i 0).val := by
    intro i κ
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  have h1 : ∀ (i : (⟨2, ![10000, 64]⟩ : Shape).Idx) (κ : dot_S10000x128_S128x64_S10000x64_1_0_0_1_n_n.contr.Idx), (dot_S10000x128_S128x64_S10000x64_1_0_0_1_n_n.lhsIdx i κ 1).val = (κ ⟨0, by decide⟩).val :=
    fun i κ => dot_S10000x128_S128x64_S10000x64_1_0_0_1_n_n.lhsIdx_val_of_single rfl i κ
  have hk := contrEquiv1_symm_val dot_S10000x128_S128x64_S10000x64_1_0_0_1_n_n 128 rfl rfl k
  exact funext fun a => Fin.ext (by
    match a with
    | ⟨0, _⟩ => exact h0 _ _
    | ⟨1, _⟩ => exact (h1 _ _).trans hk)

/-- The right operand's index there is (k, q): the contracted axis carries k, the column axis is the output's second axis. -/
theorem blockDot2_rhs (p : Fin 10000) (q : Fin 64) (k : Fin 128) :
    dot_S10000x128_S128x64_S10000x64_1_0_0_1_n_n.rhsIdx (ix2 p q) ((contrEquiv1 dot_S10000x128_S128x64_S10000x64_1_0_0_1_n_n 128 rfl rfl).symm k) = ix2 k q := by
  have h0 : ∀ (i : (⟨2, ![10000, 64]⟩ : Shape).Idx) (κ : dot_S10000x128_S128x64_S10000x64_1_0_0_1_n_n.contr.Idx), (dot_S10000x128_S128x64_S10000x64_1_0_0_1_n_n.rhsIdx i κ 0).val = (κ ⟨0, by decide⟩).val :=
    fun i κ => dot_S10000x128_S128x64_S10000x64_1_0_0_1_n_n.rhsIdx_val_of_single rfl i κ
  have h1 : ∀ (i : (⟨2, ![10000, 64]⟩ : Shape).Idx) (κ : dot_S10000x128_S128x64_S10000x64_1_0_0_1_n_n.contr.Idx), (dot_S10000x128_S128x64_S10000x64_1_0_0_1_n_n.rhsIdx i κ 1).val = (i 1).val := by
    intro i κ
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl
  have hk := contrEquiv1_symm_val dot_S10000x128_S128x64_S10000x64_1_0_0_1_n_n 128 rfl rfl k
  exact funext fun a => Fin.ext (by
    match a with
    | ⟨0, _⟩ => exact (h0 _ _).trans hk
    | ⟨1, _⟩ => exact h1 _ _)

/-- The body's payload of the second transform at entry (p, q) of a block: the left operand first passes a cast to its
    own shape, then both pass the identity rounding, and the product accumulates into zero: the plain sum over k. -/
theorem blockProduct2_apply (x0 : Vec Ideal S10000x128 .f32) (x1 : Vec Ideal S128x64 .f32) (p : Fin 10000) (q : Fin 64) :
    k2_pay1 (F := Ideal) x0 x1 (ix2 p q) = ∑ k : Fin 128, x0 (ix2 p k) * x1 (ix2 k q) := by
  unfold k2_pay1
  simp only [matmul, shapeCast_self]
  rw [Ideal.matmul_constant_zero_apply, ← Equiv.sum_comp (contrEquiv1 dot_S10000x128_S128x64_S10000x64_1_0_0_1_n_n 128 rfl rfl).symm]
  refine Finset.sum_congr rfl fun k _ => ?_
  rw [blockDot2_lhs, blockDot2_rhs]
  rfl

/-- The left operand's index of the 100000×128 by 128×64 product at output entry (p, q) and contraction position k is (p, k):
    the row axis is the output's first axis, the contracted axis carries k. -/
theorem wholeDot2_lhs (p : Fin 100000) (q : Fin 64) (k : Fin 128) :
    Cert.ReferenceIdeal.dot_S100000x128_S128x64_S100000x64_1_0_0_1_n_n.lhsIdx (ix2 p q) ((contrEquiv1 Cert.ReferenceIdeal.dot_S100000x128_S128x64_S100000x64_1_0_0_1_n_n 128 rfl rfl).symm k) = ix2 p k := by
  have h0 : ∀ (i : (⟨2, ![100000, 64]⟩ : Shape).Idx) (κ : Cert.ReferenceIdeal.dot_S100000x128_S128x64_S100000x64_1_0_0_1_n_n.contr.Idx), (Cert.ReferenceIdeal.dot_S100000x128_S128x64_S100000x64_1_0_0_1_n_n.lhsIdx i κ 0).val = (i 0).val := by
    intro i κ
    unfold DotDims.lhsIdx
    rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
    rfl
  have h1 : ∀ (i : (⟨2, ![100000, 64]⟩ : Shape).Idx) (κ : Cert.ReferenceIdeal.dot_S100000x128_S128x64_S100000x64_1_0_0_1_n_n.contr.Idx), (Cert.ReferenceIdeal.dot_S100000x128_S128x64_S100000x64_1_0_0_1_n_n.lhsIdx i κ 1).val = (κ ⟨0, by decide⟩).val :=
    fun i κ => Cert.ReferenceIdeal.dot_S100000x128_S128x64_S100000x64_1_0_0_1_n_n.lhsIdx_val_of_single rfl i κ
  have hk := contrEquiv1_symm_val Cert.ReferenceIdeal.dot_S100000x128_S128x64_S100000x64_1_0_0_1_n_n 128 rfl rfl k
  exact funext fun a => Fin.ext (by
    match a with
    | ⟨0, _⟩ => exact h0 _ _
    | ⟨1, _⟩ => exact (h1 _ _).trans hk)

/-- The right operand's index there is (k, q): the contracted axis carries k, the column axis is the output's second axis. -/
theorem wholeDot2_rhs (p : Fin 100000) (q : Fin 64) (k : Fin 128) :
    Cert.ReferenceIdeal.dot_S100000x128_S128x64_S100000x64_1_0_0_1_n_n.rhsIdx (ix2 p q) ((contrEquiv1 Cert.ReferenceIdeal.dot_S100000x128_S128x64_S100000x64_1_0_0_1_n_n 128 rfl rfl).symm k) = ix2 k q := by
  have h0 : ∀ (i : (⟨2, ![100000, 64]⟩ : Shape).Idx) (κ : Cert.ReferenceIdeal.dot_S100000x128_S128x64_S100000x64_1_0_0_1_n_n.contr.Idx), (Cert.ReferenceIdeal.dot_S100000x128_S128x64_S100000x64_1_0_0_1_n_n.rhsIdx i κ 0).val = (κ ⟨0, by decide⟩).val :=
    fun i κ => Cert.ReferenceIdeal.dot_S100000x128_S128x64_S100000x64_1_0_0_1_n_n.rhsIdx_val_of_single rfl i κ
  have h1 : ∀ (i : (⟨2, ![100000, 64]⟩ : Shape).Idx) (κ : Cert.ReferenceIdeal.dot_S100000x128_S128x64_S100000x64_1_0_0_1_n_n.contr.Idx), (Cert.ReferenceIdeal.dot_S100000x128_S128x64_S100000x64_1_0_0_1_n_n.rhsIdx i κ 1).val = (i 1).val := by
    intro i κ
    unfold DotDims.rhsIdx
    rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
    rfl
  have hk := contrEquiv1_symm_val Cert.ReferenceIdeal.dot_S100000x128_S128x64_S100000x64_1_0_0_1_n_n 128 rfl rfl k
  exact funext fun a => Fin.ext (by
    match a with
    | ⟨0, _⟩ => exact (h0 _ _).trans hk
    | ⟨1, _⟩ => exact h1 _ _)

/-- The second feature transform at entry (r, q) of the whole array: the sum over k of h (r, k) · w (k, q). -/
theorem dense2_apply (h : (⟨S100000x128, .f32⟩ : BufTy).Contents (Elt Ideal)) (w : (⟨S128x64, .f32⟩ : BufTy).Contents (Elt Ideal))
    (r : Fin 100000) (q : Fin 64) :
    Cert.Gcn.dense2 h w (ix2 r q) = ∑ k : Fin 128, h (ix2 r k) * w (ix2 k q) := by
  unfold Cert.Gcn.dense2
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  rw [wholeDot2_lhs, wholeDot2_rhs]

/-- One entry of one block: when the loaded left block holds rows 10000·t … 10000·t + 9999 of h and the loaded right
    block is all of w, entry y of the body's payload is entry i of the whole transform, where i is y moved down by 10000·t rows. -/
theorem region2_entry (h : (⟨S100000x128, .f32⟩ : BufTy).Contents (Elt Ideal)) (w : (⟨S128x64, .f32⟩ : BufTy).Contents (Elt Ideal))
    (t : Nat) (x0 : Vec Ideal S10000x128 .f32) (x1 : Vec Ideal S128x64 .f32)
    (hx0 : ∀ (p : Fin 10000) (k : Fin 128) (r : Fin 100000), r.val = 10000 * t + p.val → x0 (ix2 p k) = h (ix2 r k))
    (hx1 : ∀ (k : Fin 128) (q : Fin 64), x1 (ix2 k q) = w (ix2 k q))
    (y : S10000x64.Idx) (i : S100000x64.Idx) (h0 : (i 0).val = 10000 * t + (y 0).val) (h1 : (i 1).val = (y 1).val) :
    k2_pay1 (F := Ideal) x0 x1 y = Cert.Gcn.dense2 h w i := by
  obtain ⟨p, q, rfl⟩ : ∃ (p : Fin 10000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q' = q := Fin.ext h1
  rw [blockProduct2_apply, dense2_apply]
  exact Finset.sum_congr rfl fun k _ => by rw [hx0 p k r h0, hx1 k q']

/-! ## The first transform: x · W1, 64 input features, 128 output features -/

/-- The block indices of the first transform's three windows, over the ten grid points: the x window and the output
    window take the block of rows of the point's own number, the weight window always its one block. -/
theorem region0_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole first transform of the arrays the region finds:
    entry (p, q) of the stored payload is entry (10000·t + p, q) of x · W1. -/
theorem region0_flushed (c : Dev nD) (t : Fin cfg0.N) :
    (dat0 (F := Ideal) V c).flushed 2 t
      = ((cfg0.win 2).blk t).view.read (Elt Ideal) (Cert.Gcn.dense1 (V c main_arg0) (V c main_arg2)) := by
  show (cfg0.win 2).cut (grid0.coords t) ((dat0 V c).after 2 t) = _
  rw [after0_2]
  unfold out0_2
  rw [View.canon_unit_zero origin_eq_zero]
  simp only [View.ld_unit_zero (S := S10000x64) origin_eq_zero, View.ld_unit_zero (S := S64x128) origin_eq_zero]
  obtain ⟨e0, e1, e2, e3, e4, e5⟩ := region0_block_indices t
  funext j
  show k0_pay1 (F := Ideal) (iblk0 V c 0 t) (iblk0 V c 1 t) ((cfg0.win 2).xinj (grid0.coords t) j)
    = Cert.Gcn.dense1 (V c main_arg0) (V c main_arg2) (((cfg0.win 2).blk t).view.emb j)
  refine region0_entry (V c main_arg0) (V c main_arg2) t.val (iblk0 V c 0 t) (iblk0 V c 1 t) ?_ ?_ _ _ ?_ ?_
  · -- the x block at point t: rows 10000·t onwards, all 64 columns
    intro p k r hr
    show V c main_arg0 (((cfg0.win 0).blk t).view.emb (ix2 p k)) = V c main_arg0 (ix2 r k)
    refine congrArg _ (funext fun a => Fin.ext ?_)
    match a with
    | ⟨0, _⟩ => show win0_0.index t (0 : Fin 2) * 10000 + 1 * p.val = r.val; rw [e0, hr]; omega
    | ⟨1, _⟩ => show win0_0.index t (1 : Fin 2) * 64 + 1 * k.val = k.val; rw [e1]; omega
  · -- the weight block: the whole matrix at every point
    intro k q
    show V c main_arg2 (((cfg0.win 1).blk t).view.emb (ix2 k q)) = V c main_arg2 (ix2 k q)
    refine congrArg _ (funext fun a => Fin.ext ?_)
    match a with
    | ⟨0, _⟩ => show win0_1.index t (0 : Fin 2) * 64 + 1 * k.val = k.val; rw [e2]; omega
    | ⟨1, _⟩ => show win0_1.index t (1 : Fin 2) * 128 + 1 * q.val = q.val; rw [e3]; omega
  · show win0_2.index t (0 : Fin 2) * 10000 + 1 * (j 0).val = 10000 * t.val + (j 0).val; rw [e4]; omega
  · show win0_2.index t (1 : Fin 2) * 128 + 1 * (j 1).val = (j 1).val; rw [e5]; omega

/-- An entry of the output array lies in point t's block iff, on each axis, its coordinate lies in the block's range. -/
theorem region0_mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v27).slice (win0_2.rect t)).set ↔ _
  rw [View.set_slice_whole, Rect.mem_set_unit]
  exact Iff.rfl

/-- The ten blocks of 10000 rows cover the 100000 rows: row r lies in the block of point r / 10000, and every point
    writes its block back. -/
theorem region0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, e4, e5⟩ := region0_block_indices t
  refine ⟨t, flush0_2 t, ?_⟩
  rw [region0_mem_block]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 128 ≤ (i 1).val ∧ (i 1).val < win0_2.index t (1 : Fin 2) * 128 + 128
    rw [e5]; omega

/-- The first transform's output array after the region: the whole product x · W1 of the arrays the region finds. -/
theorem region0_array (c : Dev nD) :
    (dat0 (F := Ideal) V c).arrAt 2 cfg0.N = Cert.Gcn.dense1 (V c main_arg0) (V c main_arg2) :=
  (dat0 (F := Ideal) V c).arrAt_eq_of_cover 2 (Cert.Gcn.dense1 (V c main_arg0) (V c main_arg2))
    (fun t _ => region0_flushed V c t) region0_cover

/-! ## The second transform: h1 · W2, 128 input features, 64 output features -/

/-- The block indices of the second transform's three windows, over the ten grid points: the h1 window and the output
    window take the block of rows of the point's own number, the weight window always its one block. -/
theorem region2_block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole second transform of the arrays the region finds:
    entry (p, q) of the stored payload is entry (10000·t + p, q) of h1 · W2. -/
theorem region2_flushed (c : Dev nD) (t : Fin cfg2.N) :
    (dat2 (F := Ideal) V c).flushed 2 t
      = ((cfg2.win 2).blk t).view.read (Elt Ideal) (Cert.Gcn.dense2 (V c main_v42) (V c main_arg4)) := by
  show (cfg2.win 2).cut (grid2.coords t) ((dat2 V c).after 2 t) = _
  rw [after2_2]
  unfold out2_2
  rw [View.canon_unit_zero origin_eq_zero]
  simp only [View.ld_unit_zero (S := S10000x128) origin_eq_zero, View.ld_unit_zero (S := S128x64) origin_eq_zero]
  obtain ⟨e0, e1, e2, e3, e4, e5⟩ := region2_block_indices t
  funext j
  show k2_pay1 (F := Ideal) (iblk2 V c 0 t) (iblk2 V c 1 t) ((cfg2.win 2).xinj (grid2.coords t) j)
    = Cert.Gcn.dense2 (V c main_v42) (V c main_arg4) (((cfg2.win 2).blk t).view.emb j)
  refine region2_entry (V c main_v42) (V c main_arg4) t.val (iblk2 V c 0 t) (iblk2 V c 1 t) ?_ ?_ _ _ ?_ ?_
  · -- the h1 block at point t: rows 10000·t onwards, all 128 columns
    intro p k r hr
    show V c main_v42 (((cfg2.win 0).blk t).view.emb (ix2 p k)) = V c main_v42 (ix2 r k)
    refine congrArg _ (funext fun a => Fin.ext ?_)
    match a with
    | ⟨0, _⟩ => show win2_0.index t (0 : Fin 2) * 10000 + 1 * p.val = r.val; rw [e0, hr]; omega
    | ⟨1, _⟩ => show win2_0.index t (1 : Fin 2) * 128 + 1 * k.val = k.val; rw [e1]; omega
  · -- the weight block: the whole matrix at every point
    intro k q
    show V c main_arg4 (((cfg2.win 1).blk t).view.emb (ix2 k q)) = V c main_arg4 (ix2 k q)
    refine congrArg _ (funext fun a => Fin.ext ?_)
    match a with
    | ⟨0, _⟩ => show win2_1.index t (0 : Fin 2) * 128 + 1 * k.val = k.val; rw [e2]; omega
    | ⟨1, _⟩ => show win2_1.index t (1 : Fin 2) * 64 + 1 * q.val = q.val; rw [e3]; omega
  · show win2_2.index t (0 : Fin 2) * 10000 + 1 * (j 0).val = 10000 * t.val + (j 0).val; rw [e4]; omega
  · show win2_2.index t (1 : Fin 2) * 64 + 1 * (j 1).val = (j 1).val; rw [e5]; omega

/-- An entry of the output array lies in point t's block iff, on each axis, its coordinate lies in the block's range. -/
theorem region2_mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v43).slice (win2_2.rect t)).set ↔ _
  rw [View.set_slice_whole, Rect.mem_set_unit]
  exact Iff.rfl

/-- The ten blocks of 10000 rows cover the 100000 rows: row r lies in the block of point r / 10000, and every point
    writes its block back. -/
theorem region2_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  obtain ⟨t, ht⟩ : ∃ t : Fin cfg2.N, t.val = (i 0).val / 10000 :=
    ⟨⟨(i 0).val / 10000, by show (i 0).val / 10000 < grid2.N; rw [hN]; omega⟩, rfl⟩
  obtain ⟨-, -, -, -, e4, e5⟩ := region2_block_indices t
  refine ⟨t, flush2_2 t, ?_⟩
  rw [region2_mem_block]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 64 ≤ (i 1).val ∧ (i 1).val < win2_2.index t (1 : Fin 2) * 64 + 64
    rw [e5]; omega

/-- The second transform's output array after the region: the whole product h1 · W2 of the arrays the region finds. -/
theorem region2_array (c : Dev nD) :
    (dat2 (F := Ideal) V c).arrAt 2 cfg2.N = Cert.Gcn.dense2 (V c main_v42) (V c main_arg4) :=
  (dat2 (F := Ideal) V c).arrAt_eq_of_cover 2 (Cert.Gcn.dense2 (V c main_v42) (V c main_arg4))
    (fun t _ => region2_flushed V c t) region2_cover

end Cert.KernelIdeal.Regions
end
-- ==== Proof.RegionBiasRelu.lean ====
/-
  The two bias-and-rectifier steps of the graph convolution, block by block and as whole arrays.

  Each step takes an aggregated array a (100000 rows) and a bias b held as one row, and leaves max (a + b, 0) with the
  bias row repeated along the rows. The kernel does it on ten blocks of 10000 rows; the whole-array form does it at once.
  Both are pointwise, so they agree entry by entry: entry (n, j) of either is max (a (n, j) + b j, 0). The first step has
  128 features, the second 64; the two proofs are the same with the feature count changed.
-/
import proofs.«124524_j4123168604928_1_alg».proof.Proof.Stages
import proofs.«124524_j4123168604928_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Regions
open Cert.KernelIdeal Cert.KernelIdeal.Gen Idealize.ShloMosaic Idealize.ShloMosaic.TcCoe Idealize.SL.Sem Idealize.ShloMosaic.ValueIdx

/-- The two coordinates of a block's origin, spelt as a literal pair, are both zero. -/
theorem origin_zero : (![0, 0] : Fin 2 → Nat) = fun _ => 0 := funext fun a => by fin_cases a <;> rfl

/-! ## 128 features -/

section Features128
/-- One row repeated along 100000 rows, read at (n, j): the row's entry (0, j). -/
theorem rowRepeat128_apply {α : Type} (y : Cert.ReferenceIdeal.S1x128.Idx → α) (n : Fin 100000) (j : Fin 128) :
    broadcastInDim Cert.ReferenceIdeal.S100000x128 ![0, 1] Cert.ReferenceIdeal.Gen.bcast_S1x128_S100000x128_0_1 y (ix2 n j) = y (ix2 (0 : Fin 1) j) :=
  broadcastInDim_apply _ Cert.ReferenceIdeal.Gen.bcast_S1x128_S100000x128_0_1 y (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])

/-- A vector of 128 entries laid out as one row, read at (0, j): the vector's entry j. -/
theorem asRow128_apply {α : Type} (b : Cert.ReferenceIdeal.S128.Idx → α) (j : Fin 128) :
    broadcastInDim Cert.ReferenceIdeal.S1x128 ![1] Cert.ReferenceIdeal.Gen.bcast_S128_S1x128_1 b (ix2 (0 : Fin 1) j) = b (ix1 j) :=
  broadcastInDim_apply _ Cert.ReferenceIdeal.Gen.bcast_S128_S1x128_1 b (ix2 (0 : Fin 1) j) (ix1 j) (fun a => match a with
    | ⟨0, _⟩ => by show j.val = if (128 : Nat) = 1 then 0 else j.val; rw [if_neg (by decide)])

/-- One scalar repeated over the whole array, read anywhere: the scalar. -/
theorem scalarRepeat128_apply {α : Type} (z : Cert.ReferenceIdeal.S_.Idx → α) (i : Cert.ReferenceIdeal.S100000x128.Idx) :
    broadcastInDim Cert.ReferenceIdeal.S100000x128 ![] Cert.ReferenceIdeal.Gen.bcast_S_S100000x128 z i = z ix0 :=
  broadcastInDim_apply _ Cert.ReferenceIdeal.Gen.bcast_S_S100000x128 z i ix0 (fun a => a.elim0)

/-- The whole-array step at entry (n, j): max (a (n, j) + b j, 0). The bias is first laid out as one row
    (entry (0, j) of the row is b j), the row is repeated along the rows, and the zero is one scalar repeated everywhere. -/
theorem biasRelu128_apply (a : (⟨Cert.ReferenceIdeal.S100000x128, .f32⟩ : BufTy).Contents (Elt Ideal))
    (b : (⟨Cert.ReferenceIdeal.S128, .f32⟩ : BufTy).Contents (Elt Ideal)) (n : Fin 100000) (j : Fin 128) :
    Cert.Gcn.biasRelu128 a b (ix2 n j) = max (a (ix2 n j) + b (ix1 j)) (Ideal.ofBits .f32 0x00000000#32) := by
  unfold Cert.Gcn.biasRelu128
  rw [maximumf_apply, addf_apply, rowRepeat128_apply, asRow128_apply, scalarRepeat128_apply]
  rfl

/-- The block step at entry (p, q) of a block: max (x (p, q) + r (0, q), 0), where r is the bias row. The casts to
    the same shape change nothing, the row is repeated along the block's rows, the zero is one scalar repeated. -/
theorem k1_pay1_apply (r : Vec Ideal S1x128 .f32) (x : Vec Ideal S10000x128 .f32) (p : Fin 10000) (q : Fin 128) :
    k1_pay1 r x (ix2 p q) = max (x (ix2 p q) + r (ix2 (0 : Fin 1) q)) (Ideal.ofBits .f32 0x00000000#32) := by
  unfold k1_pay1
  rw [maximumf_apply, addf_apply, broadcast_apply, shapeCast_self, shapeCast_self, shapeCast_self,
    broadcastTo_1b_ab_apply]
  rfl

/-- The block indices over the grid of ten points: the data and the output move down one block of rows per
    point and stay at column block 0; the bias row stays at block (0, 0). -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Entry (p, q) of the data block at point t is entry (10000 t + p, q) of the aggregated array. -/
theorem dataBlock1_apply (c : Dev nD) (t : Fin cfg1.N) (p : Fin 10000) (q : Fin 128) (n : Fin 100000)
    (hn : n.val = t.val * 10000 + p.val) :
    (iblk1 (F := Ideal) V c 0 t : Vec Ideal S10000x128 .f32) (ix2 p q) = V c main_v40 (ix2 n q) := by
  obtain ⟨e0, e1, -, -, -, -⟩ := blockIndex1 t
  unfold iblk1
  rw [View.read_apply]
  show V c main_v40 (((cfg1.win 0).blk t).view.emb (ix2 p q)) = V c main_v40 (ix2 n q)
  have h : ((cfg1.win 0).blk t).view.emb (ix2 p q) = ix2 n q := by
    funext a; apply Fin.ext
    match a with
    | ⟨0, _⟩ => show win1_0.index t (0 : Fin 2) * 10000 + 1 * p.val = n.val; omega
    | ⟨1, _⟩ => show win1_0.index t (1 : Fin 2) * 128 + 1 * q.val = q.val; omega
  rw [h]

/-- Entry (0, q) of the bias block at any point is entry (0, q) of the bias row: the block is the whole row. -/
theorem biasBlock1_apply (c : Dev nD) (t : Fin cfg1.N) (q : Fin 128) :
    (iblk1 (F := Ideal) V c 1 t : Vec Ideal S1x128 .f32) (ix2 (0 : Fin 1) q) = V c main_v41 (ix2 (0 : Fin 1) q) := by
  obtain ⟨-, -, e0, e1, -, -⟩ := blockIndex1 t
  unfold iblk1
  rw [View.read_apply]
  show V c main_v41 (((cfg1.win 1).blk t).view.emb (ix2 (0 : Fin 1) q)) = V c main_v41 (ix2 (0 : Fin 1) q)
  have h : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [h]

/-- Entry (p, q) of the output block at point t sits at entry (10000 t + p, q) of the output array. -/
theorem outBlock1_emb (t : Fin cfg1.N) (p : Fin 10000) (q : Fin 128) (n : Fin 100000)
    (hn : n.val = t.val * 10000 + p.val) :
    ((cfg1.win 2).blk t).view.emb (ix2 p q) = ix2 n q := by
  obtain ⟨-, -, -, -, e0, e1⟩ := blockIndex1 t
  funext a; apply Fin.ext
  match a with
  | ⟨0, _⟩ => show win1_2.index t (0 : Fin 2) * 10000 + 1 * p.val = n.val; omega
  | ⟨1, _⟩ => show win1_2.index t (1 : Fin 2) * 128 + 1 * q.val = q.val; omega

/-- What point t writes back is block t of the whole-array step of the arrays as the region finds them. -/
theorem flushed1_eq (c : Dev nD) (b : (⟨Cert.ReferenceIdeal.S128, .f32⟩ : BufTy).Contents (Elt Ideal))
    (hb : ∀ j : Fin 128, V c main_v41 (ix2 (0 : Fin 1) j) = b (ix1 j)) (t : Fin cfg1.N) :
    (dat1 (F := Ideal) V c).flushed 2 t
      = ((cfg1.win 2).blk t).view.read (Elt Ideal) (Cert.Gcn.biasRelu128 (V c main_v40) b) := by
  show (cfg1.win 2).cut (grid1.coords t) ((dat1 (F := Ideal) V c).after 2 t) = _
  rw [after1_2]
  unfold out1_2
  rw [View.canon_unit_zero origin_zero]
  simp only [View.ld_unit_zero (S := S10000x128) origin_zero, View.ld_unit_zero (S := S1x128) origin_zero]
  funext y
  obtain ⟨p, q, rfl⟩ : ∃ (p : Fin 10000) (q : Fin 128), y = ix2 p q := ⟨y 0, y 1, eq_ix2 y⟩
  have ht : t.val < 10 := lt_of_lt_of_eq t.isLt N_1
  have hlt : t.val * 10000 + p.val < 100000 := by have := p.isLt; omega
  refine (k1_pay1_apply (iblk1 V c 1 t) (iblk1 V c 0 t) p q).trans ?_
  rw [dataBlock1_apply V c t p q ⟨t.val * 10000 + p.val, hlt⟩ rfl, biasBlock1_apply V c t q, hb q]
  show _ = Cert.Gcn.biasRelu128 (V c main_v40) b (((cfg1.win 2).blk t).view.emb (ix2 p q))
  rw [outBlock1_emb t p q ⟨t.val * 10000 + p.val, hlt⟩ rfl, biasRelu128_apply]

/-- An entry of the output array lies in point t's block iff, on each axis, its coordinate lies in the block's range. -/
theorem mem_outBlock1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v42).slice (win1_2.rect t)).set ↔ _
  rw [View.set_slice_whole, Rect.mem_set_unit]
  exact Iff.rfl

/-- The ten blocks of 10000 rows fill the output array: row r lies in the block of point r / 10000. -/
theorem outBlocks1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, htv⟩ : ∃ t : Fin cfg1.N, t.val = (i 0).val / 10000 :=
    ⟨⟨(i 0).val / 10000, lt_of_lt_of_eq (by omega : (i 0).val / 10000 < 10) N_1.symm⟩, rfl⟩
  obtain ⟨-, -, -, -, e0, e1⟩ := blockIndex1 t
  refine ⟨t, flush1_2 t, ?_⟩
  rw [mem_outBlock1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- The first bias-and-rectifier step: after the ten points, the output array is the whole-array step of the aggregated
    array and the bias, given that the bias row the region reads holds the bias vector. -/
theorem region1_array (c : Dev nD) (b : (⟨Cert.ReferenceIdeal.S128, .f32⟩ : BufTy).Contents (Elt Ideal))
    (hb : ∀ j : Fin 128, V c main_v41 (ix2 (0 : Fin 1) j) = b (ix1 j)) :
    (dat1 (F := Ideal) V c).arrAt 2 cfg1.N = Cert.Gcn.biasRelu128 (V c main_v40) b :=
  (dat1 (F := Ideal) V c).arrAt_eq_of_cover 2 (Cert.Gcn.biasRelu128 (V c main_v40) b)
    (fun t _ => flushed1_eq V c b hb t) outBlocks1_cover

end Features128

/-! ## 64 features -/

section Features64
/-- One row repeated along 100000 rows, read at (n, j): the row's entry (0, j). -/
theorem rowRepeat64_apply {α : Type} (y : Cert.ReferenceIdeal.S1x64.Idx → α) (n : Fin 100000) (j : Fin 64) :
    broadcastInDim Cert.ReferenceIdeal.S100000x64 ![0, 1] Cert.ReferenceIdeal.Gen.bcast_S1x64_S100000x64_0_1 y (ix2 n j) = y (ix2 (0 : Fin 1) j) :=
  broadcastInDim_apply _ Cert.ReferenceIdeal.Gen.bcast_S1x64_S100000x64_0_1 y (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])

/-- A vector of 64 entries laid out as one row, read at (0, j): the vector's entry j. -/
theorem asRow64_apply {α : Type} (b : Cert.ReferenceIdeal.S64.Idx → α) (j : Fin 64) :
    broadcastInDim Cert.ReferenceIdeal.S1x64 ![1] Cert.ReferenceIdeal.Gen.bcast_S64_S1x64_1 b (ix2 (0 : Fin 1) j) = b (ix1 j) :=
  broadcastInDim_apply _ Cert.ReferenceIdeal.Gen.bcast_S64_S1x64_1 b (ix2 (0 : Fin 1) j) (ix1 j) (fun a => match a with
    | ⟨0, _⟩ => by show j.val = if (64 : Nat) = 1 then 0 else j.val; rw [if_neg (by decide)])

/-- One scalar repeated over the whole array, read anywhere: the scalar. -/
theorem scalarRepeat64_apply {α : Type} (z : Cert.ReferenceIdeal.S_.Idx → α) (i : Cert.ReferenceIdeal.S100000x64.Idx) :
    broadcastInDim Cert.ReferenceIdeal.S100000x64 ![] Cert.ReferenceIdeal.Gen.bcast_S_S100000x64 z i = z ix0 :=
  broadcastInDim_apply _ Cert.ReferenceIdeal.Gen.bcast_S_S100000x64 z i ix0 (fun a => a.elim0)

/-- The whole-array step at entry (n, j): max (a (n, j) + b j, 0). The bias is first laid out as one row
    (entry (0, j) of the row is b j), the row is repeated along the rows, and the zero is one scalar repeated everywhere. -/
theorem biasRelu64_apply (a : (⟨Cert.ReferenceIdeal.S100000x64, .f32⟩ : BufTy).Contents (Elt Ideal))
    (b : (⟨Cert.ReferenceIdeal.S64, .f32⟩ : BufTy).Contents (Elt Ideal)) (n : Fin 100000) (j : Fin 64) :
    Cert.Gcn.biasRelu64 a b (ix2 n j) = max (a (ix2 n j) + b (ix1 j)) (Ideal.ofBits .f32 0x00000000#32) := by
  unfold Cert.Gcn.biasRelu64
  rw [maximumf_apply, addf_apply, rowRepeat64_apply, asRow64_apply, scalarRepeat64_apply]
  rfl

/-- The block step at entry (p, q) of a block: max (x (p, q) + r (0, q), 0), where r is the bias row. The casts to
    the same shape change nothing, the row is repeated along the block's rows, the zero is one scalar repeated. -/
theorem k3_pay1_apply (r : Vec Ideal S1x64 .f32) (x : Vec Ideal S10000x64 .f32) (p : Fin 10000) (q : Fin 64) :
    k3_pay1 r x (ix2 p q) = max (x (ix2 p q) + r (ix2 (0 : Fin 1) q)) (Ideal.ofBits .f32 0x00000000#32) := by
  unfold k3_pay1
  rw [maximumf_apply, addf_apply, broadcast_apply, shapeCast_self, shapeCast_self, shapeCast_self,
    broadcastTo_1b_ab_apply]
  rfl

/-- The block indices over the grid of ten points: the data and the output move down one block of rows per
    point and stay at column block 0; the bias row stays at block (0, 0). -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- Entry (p, q) of the data block at point t is entry (10000 t + p, q) of the aggregated array. -/
theorem dataBlock3_apply (c : Dev nD) (t : Fin cfg3.N) (p : Fin 10000) (q : Fin 64) (n : Fin 100000)
    (hn : n.val = t.val * 10000 + p.val) :
    (iblk3 (F := Ideal) V c 0 t : Vec Ideal S10000x64 .f32) (ix2 p q) = V c main_v56 (ix2 n q) := by
  obtain ⟨e0, e1, -, -, -, -⟩ := blockIndex3 t
  unfold iblk3
  rw [View.read_apply]
  show V c main_v56 (((cfg3.win 0).blk t).view.emb (ix2 p q)) = V c main_v56 (ix2 n q)
  have h : ((cfg3.win 0).blk t).view.emb (ix2 p q) = ix2 n q := by
    funext a; apply Fin.ext
    match a with
    | ⟨0, _⟩ => show win3_0.index t (0 : Fin 2) * 10000 + 1 * p.val = n.val; omega
    | ⟨1, _⟩ => show win3_0.index t (1 : Fin 2) * 64 + 1 * q.val = q.val; omega
  rw [h]

/-- Entry (0, q) of the bias block at any point is entry (0, q) of the bias row: the block is the whole row. -/
theorem biasBlock3_apply (c : Dev nD) (t : Fin cfg3.N) (q : Fin 64) :
    (iblk3 (F := Ideal) V c 1 t : Vec Ideal S1x64 .f32) (ix2 (0 : Fin 1) q) = V c main_v57 (ix2 (0 : Fin 1) q) := by
  obtain ⟨-, -, e0, e1, -, -⟩ := blockIndex3 t
  unfold iblk3
  rw [View.read_apply]
  show V c main_v57 (((cfg3.win 1).blk t).view.emb (ix2 (0 : Fin 1) q)) = V c main_v57 (ix2 (0 : Fin 1) q)
  have h : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  rw [h]

/-- Entry (p, q) of the output block at point t sits at entry (10000 t + p, q) of the output array. -/
theorem outBlock3_emb (t : Fin cfg3.N) (p : Fin 10000) (q : Fin 64) (n : Fin 100000)
    (hn : n.val = t.val * 10000 + p.val) :
    ((cfg3.win 2).blk t).view.emb (ix2 p q) = ix2 n q := by
  obtain ⟨-, -, -, -, e0, e1⟩ := blockIndex3 t
  funext a; apply Fin.ext
  match a with
  | ⟨0, _⟩ => show win3_2.index t (0 : Fin 2) * 10000 + 1 * p.val = n.val; omega
  | ⟨1, _⟩ => show win3_2.index t (1 : Fin 2) * 64 + 1 * q.val = q.val; omega

/-- What point t writes back is block t of the whole-array step of the arrays as the region finds them. -/
theorem flushed3_eq (c : Dev nD) (b : (⟨Cert.ReferenceIdeal.S64, .f32⟩ : BufTy).Contents (Elt Ideal))
    (hb : ∀ j : Fin 64, V c main_v57 (ix2 (0 : Fin 1) j) = b (ix1 j)) (t : Fin cfg3.N) :
    (dat3 (F := Ideal) V c).flushed 2 t
      = ((cfg3.win 2).blk t).view.read (Elt Ideal) (Cert.Gcn.biasRelu64 (V c main_v56) b) := by
  show (cfg3.win 2).cut (grid3.coords t) ((dat3 (F := Ideal) V c).after 2 t) = _
  rw [after3_2]
  unfold out3_2
  rw [View.canon_unit_zero origin_zero]
  simp only [View.ld_unit_zero (S := S10000x64) origin_zero, View.ld_unit_zero (S := S1x64) origin_zero]
  funext y
  obtain ⟨p, q, rfl⟩ : ∃ (p : Fin 10000) (q : Fin 64), y = ix2 p q := ⟨y 0, y 1, eq_ix2 y⟩
  have ht : t.val < 10 := lt_of_lt_of_eq t.isLt N_3
  have hlt : t.val * 10000 + p.val < 100000 := by have := p.isLt; omega
  refine (k3_pay1_apply (iblk3 V c 1 t) (iblk3 V c 0 t) p q).trans ?_
  rw [dataBlock3_apply V c t p q ⟨t.val * 10000 + p.val, hlt⟩ rfl, biasBlock3_apply V c t q, hb q]
  show _ = Cert.Gcn.biasRelu64 (V c main_v56) b (((cfg3.win 2).blk t).view.emb (ix2 p q))
  rw [outBlock3_emb t p q ⟨t.val * 10000 + p.val, hlt⟩ rfl, biasRelu64_apply]

/-- An entry of the output array lies in point t's block iff, on each axis, its coordinate lies in the block's range. -/
theorem mem_outBlock3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v58).slice (win3_2.rect t)).set ↔ _
  rw [View.set_slice_whole, Rect.mem_set_unit]
  exact Iff.rfl

/-- The ten blocks of 10000 rows fill the output array: row r lies in the block of point r / 10000. -/
theorem outBlocks3_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, htv⟩ : ∃ t : Fin cfg3.N, t.val = (i 0).val / 10000 :=
    ⟨⟨(i 0).val / 10000, lt_of_lt_of_eq (by omega : (i 0).val / 10000 < 10) N_3.symm⟩, rfl⟩
  obtain ⟨-, -, -, -, e0, e1⟩ := blockIndex3 t
  refine ⟨t, flush3_2 t, ?_⟩
  rw [mem_outBlock3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

/-- The second bias-and-rectifier step: after the ten points, the output array is the whole-array step of the aggregated
    array and the bias, given that the bias row the region reads holds the bias vector. -/
theorem region3_array (c : Dev nD) (b : (⟨Cert.ReferenceIdeal.S64, .f32⟩ : BufTy).Contents (Elt Ideal))
    (hb : ∀ j : Fin 64, V c main_v57 (ix2 (0 : Fin 1) j) = b (ix1 j)) :
    (dat3 (F := Ideal) V c).arrAt 2 cfg3.N = Cert.Gcn.biasRelu64 (V c main_v56) b :=
  (dat3 (F := Ideal) V c).arrAt_eq_of_cover 2 (Cert.Gcn.biasRelu64 (V c main_v56) b)
    (fun t _ => flushed3_eq V c b hb t) outBlocks3_cover

end Features64

end Cert.KernelIdeal.Regions
end
-- ==== Proof.RegionHead.lean ====
/-
  The linear head of the two-layer graph convolution, block by block.

  The last region computes, for each block of 10000 rows of the 100000×64 activations h, the matrix product of the block
  with the whole 64×1 weight w into a zero accumulator, and adds the bias, held as a 1×1 array, on every row. The
  reference computes the same as one contraction over the feature axis plus the bias broadcast along the rows.

  Both sides are read at an index: entry (n, 0) is (sum over the 64 features k of h (n, k) · w (k, 0)) + b 0. For the
  block of grid point t, entry (p, 0) of the block's result reads row 10000·t + p of h, so what point t writes back is
  block t of the reference's function. The ten row blocks cover the 100000 rows (row r lies in block r / 10000), so the
  result array after the region is that function.
-/
import proofs.«124524_j4123168604928_1_alg».proof.Proof.Stages
import proofs.«124524_j4123168604928_1_alg».proof.Proof.Gen.KernelIdeal.Frame
import Idealize.ShloMosaic.Lib.Pipeline.Value
import Idealize.ShloMosaic.Lib.ValueIdx
import Idealize.ShloMosaic.PureOps.Ideal.Laws

noncomputable section
namespace Cert.KernelIdeal.Regions
open Cert.KernelIdeal Cert.KernelIdeal.Gen Idealize.ShloMosaic Idealize.ShloMosaic.TcCoe Idealize.SL.Sem Idealize.ShloMosaic.ValueIdx
variable (V : (c : Dev nD) → (b : Ref sig .tc) → Buf (Elt Ideal) ((c : Thread nD τ).loc b))

/-! ## The reference's linear head at an index -/

/-- The reference's contraction record, left operand: on the row axis the operand index is the output's row. -/
theorem head_ref_lhs_row (i : Cert.ReferenceIdeal.S100000x1.Idx)
    (q : Cert.ReferenceIdeal.dot_S100000x64_S64x1_S100000x1_1_0_0_1_n_n.contr.Idx) :
    (Cert.ReferenceIdeal.dot_S100000x64_S64x1_S100000x1_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x1_S100000x1_1_0_0_1_n_n.lhsBatch by decide),
    dif_pos (show (0 : Fin Cert.ReferenceIdeal.S100000x64.rank) ∈ Cert.ReferenceIdeal.dot_S100000x64_S64x1_S100000x1_1_0_0_1_n_n.lhsNonContracting by decide)]
  rfl

/-- Right operand: on the column axis the operand index is the output's column. -/
theorem head_ref_rhs_col (i : Cert.ReferenceIdeal.S100000x1.Idx)
    (q : Cert.ReferenceIdeal.dot_S100000x64_S64x1_S100000x1_1_0_0_1_n_n.contr.Idx) :
    (Cert.ReferenceIdeal.dot_S100000x64_S64x1_S100000x1_1_0_0_1_n_n.rhsIdx i q 1).val = (i 1).val := by
  unfold DotDims.rhsIdx
  rw [dif_neg (show ¬(1 : Fin Cert.ReferenceIdeal.S64x1.rank) ∈ Cert.ReferenceIdeal.dot_S100000x64_S64x1_S100000x1_1_0_0_1_n_n.rhsBatch by decide),
    dif_pos (show (1 : Fin Cert.ReferenceIdeal.S64x1.rank) ∈ Cert.ReferenceIdeal.dot_S100000x64_S64x1_S100000x1_1_0_0_1_n_n.rhsNonContracting by decide)]
  rfl

/-- The linear head at an index: entry (n, 0) is the sum over the 64 features k of h (n, k) · w (k, 0), plus the one bias. -/
theorem head_apply (h : (⟨Cert.ReferenceIdeal.S100000x64, .f32⟩ : BufTy).Contents (Elt Ideal))
    (w : (⟨Cert.ReferenceIdeal.S64x1, .f32⟩ : BufTy).Contents (Elt Ideal))
    (b : (⟨Cert.ReferenceIdeal.S1, .f32⟩ : BufTy).Contents (Elt Ideal)) (n : Fin 100000) :
    Cert.Gcn.head h w b (ix2 n (0 : Fin 1))
      = (∑ k : Fin 64, h (ix2 n k) * w (ix2 k (0 : Fin 1))) + b (ix1 (0 : Fin 1)) := by
  unfold Cert.Gcn.head
  rw [addf_apply]
  congr 1
  · simp only [Host.dotGeneral]
    rw [Ideal.dotGeneral_apply, ← Equiv.sum_comp (contrEquiv1 Cert.ReferenceIdeal.dot_S100000x64_S64x1_S100000x1_1_0_0_1_n_n 64 rfl rfl).symm]
    refine Finset.sum_congr rfl fun k _ => ?_
    have hk := contrEquiv1_symm_val Cert.ReferenceIdeal.dot_S100000x64_S64x1_S100000x1_1_0_0_1_n_n 64 rfl rfl k
    have el : Cert.ReferenceIdeal.dot_S100000x64_S64x1_S100000x1_1_0_0_1_n_n.lhsIdx (ix2 n (0 : Fin 1))
        ((contrEquiv1 Cert.ReferenceIdeal.dot_S100000x64_S64x1_S100000x1_1_0_0_1_n_n 64 rfl rfl).symm k) = ix2 n k :=
      funext fun a => Fin.ext (by
        match a with
        | ⟨0, _⟩ => exact head_ref_lhs_row _ _
        | ⟨1, _⟩ => exact (Cert.ReferenceIdeal.dot_S100000x64_S64x1_S100000x1_1_0_0_1_n_n.lhsIdx_val_of_single rfl _ _).trans hk)
    have er : Cert.ReferenceIdeal.dot_S100000x64_S64x1_S100000x1_1_0_0_1_n_n.rhsIdx (ix2 n (0 : Fin 1))
        ((contrEquiv1 Cert.ReferenceIdeal.dot_S100000x64_S64x1_S100000x1_1_0_0_1_n_n 64 rfl rfl).symm k) = ix2 k (0 : Fin 1) :=
      funext fun a => Fin.ext (by
        match a with
        | ⟨0, _⟩ => exact (Cert.ReferenceIdeal.dot_S100000x64_S64x1_S100000x1_1_0_0_1_n_n.rhsIdx_val_of_single rfl _ _).trans hk
        | ⟨1, _⟩ => exact head_ref_rhs_col _ _)
    rw [el, er]
  · refine (broadcastInDim_apply _ _ _ (ix2 n (0 : Fin 1)) (ix2 (0 : Fin 1) (0 : Fin 1)) (fun a => ?_)).trans ?_
    · match a with
      | ⟨0, _⟩ => show 0 = if (1 : Nat) = 1 then 0 else _; rw [if_pos rfl]
      | ⟨1, _⟩ => show 0 = if (1 : Nat) = 1 then 0 else _; rw [if_pos rfl]
    · exact broadcastInDim_apply _ _ b (ix2 (0 : Fin 1) (0 : Fin 1)) (ix1 (0 : Fin 1)) (fun a => by
        match a with
        | ⟨0, _⟩ => show 0 = if (1 : Nat) = 1 then 0 else _; rw [if_pos rfl])

/-! ## The block's payload at an index -/

/-- The block's contraction record, left operand: on the row axis the operand index is the output's row. -/
theorem head_blk_lhs_row (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide),
    dif_pos (show (0 : Fin S10000x64.rank) ∈ dot_S10000x64_S64x1_S10000x1_1_0_0_1_n_n.lhsNonContracting by decide)]
  rfl

/-- Right operand: on the column axis the operand index is the output's column. -/
theorem head_blk_rhs_col (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide),
    dif_pos (show (1 : Fin S64x1.rank) ∈ dot_S10000x64_S64x1_S10000x1_1_0_0_1_n_n.rhsNonContracting by decide)]
  rfl

/-- The block's matrix product into the zero accumulator at an index: row p of the 10000×64 block against the one
    column of the 64×1 weight, both first rounded to the narrower format, which is the identity over the extended reals. -/
theorem head_blk_matmul_apply (x0 : Vec Ideal S10000x64 .f32) (x1 : Vec Ideal S64x1 .f32) (p : Fin 10000) :
    matmul (F := Ideal) dot_S10000x64_S64x1_S10000x1_1_0_0_1_n_n none
        (truncf .bf16 (shapeCast S10000x64 x0 shapeCasts_S10000x64_S10000x64) bitsLt_bf16_f32)
        (truncf .bf16 x1 bitsLt_bf16_f32) (constant (F := Ideal) S10000x1 .f32 0x00000000#32) (ix2 p (0 : Fin 1))
      = ∑ k : Fin 64, x0 (ix2 p k) * x1 (ix2 k (0 : Fin 1)) := by
  rw [shapeCast_self]
  refine (Ideal.matmul_constant_zero_apply dot_S10000x64_S64x1_S10000x1_1_0_0_1_n_n none _ _ _).trans ?_
  rw [← Equiv.sum_comp (contrEquiv1 dot_S10000x64_S64x1_S10000x1_1_0_0_1_n_n 64 rfl rfl).symm]
  refine Finset.sum_congr rfl fun k _ => ?_
  have hk := contrEquiv1_symm_val dot_S10000x64_S64x1_S10000x1_1_0_0_1_n_n 64 rfl rfl k
  have el : dot_S10000x64_S64x1_S10000x1_1_0_0_1_n_n.lhsIdx (ix2 p (0 : Fin 1))
      ((contrEquiv1 dot_S10000x64_S64x1_S10000x1_1_0_0_1_n_n 64 rfl rfl).symm k) = ix2 p k :=
    funext fun a => Fin.ext (by
      match a with
      | ⟨0, _⟩ => exact head_blk_lhs_row _ _
      | ⟨1, _⟩ => exact (dot_S10000x64_S64x1_S10000x1_1_0_0_1_n_n.lhsIdx_val_of_single rfl _ _).trans hk)
  have er : dot_S10000x64_S64x1_S10000x1_1_0_0_1_n_n.rhsIdx (ix2 p (0 : Fin 1))
      ((contrEquiv1 dot_S10000x64_S64x1_S10000x1_1_0_0_1_n_n 64 rfl rfl).symm k) = ix2 k (0 : Fin 1) :=
    funext fun a => Fin.ext (by
      match a with
      | ⟨0, _⟩ => exact (dot_S10000x64_S64x1_S10000x1_1_0_0_1_n_n.rhsIdx_val_of_single rfl _ _).trans hk
      | ⟨1, _⟩ => exact head_blk_rhs_col _ _)
  rw [truncf_apply, truncf_apply, el, er]

/-- The block's bias at an index: the 1×1 array's one entry on every row. -/
theorem head_blk_bias_apply (x2 : Vec Ideal S1x1 .f32) (p : Fin 10000) :
    broadcastTo S10000x1 (shapeCast S1x1 (shapeCast S1x1 x2 shapeCasts_S1x1_S1x1) shapeCasts_S1x1_S1x1) broadcasts_S1x1_S10000x1
        (ix2 p (0 : Fin 1)) = x2 (ix2 (0 : Fin 1) (0 : Fin 1)) := by
  rw [shapeCast_self, shapeCast_self]
  exact broadcastTo_apply x2 broadcasts_S1x1_S10000x1 (ix2 p (0 : Fin 1)) (ix2 (0 : Fin 1) (0 : Fin 1)) (fun a => by
    match a with
    | ⟨0, _⟩ => show 0 = if (1 : Nat) = 1 then 0 else _; rw [if_pos rfl]
    | ⟨1, _⟩ => show 0 = if (1 : Nat) = 1 then 0 else _; rw [if_pos rfl])

/-- The block's payload at an index: entry (p, 0) is the sum over the 64 features k of x0 (p, k) · x1 (k, 0), plus the
    1×1 array's entry. -/
theorem head_payload_apply (x0 : Vec Ideal S10000x64 .f32) (x1 : Vec Ideal S64x1 .f32) (x2 : Vec Ideal S1x1 .f32) (p : Fin 10000) :
    k4_pay1 (F := Ideal) x0 x1 x2 (ix2 p (0 : Fin 1))
      = (∑ k : Fin 64, x0 (ix2 p k) * x1 (ix2 k (0 : Fin 1))) + x2 (ix2 (0 : Fin 1) (0 : Fin 1)) := by
  unfold k4_pay1
  refine (addf_apply _ _ _).trans ?_
  rw [head_blk_matmul_apply, head_blk_bias_apply]

/-! ## From blocks to the array -/

/-- The zero offsets of an access to a whole block, as a constant function. -/
theorem head_zero_offsets : (![0, 0] : Fin 2 → Nat) = fun _ => 0 := funext fun a => by fin_cases a <;> rfl

/-- The printed index maps over the ten grid points: the activations and the result move in row blocks (block t on the
    row axis, block 0 on the feature axis); the weight and the bias are whole at every point. -/
theorem head_index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Point t's activation block is rows 10000·t … 10000·t + 9999 of the activations. -/
theorem head_rows_block_apply (c : Dev nD) (t : Fin cfg4.N) (p : Fin 10000) (k : Fin 64) (n : Fin 100000)
    (hn : n.val = t.val * 10000 + p.val) :
    (iblk4 (F := Ideal) V c 0 t : Vec Ideal S10000x64 .f32) (ix2 p k) = (V c main_v58 : S100000x64.Idx → Elt Ideal .f32) (ix2 n k) := by
  obtain ⟨e0, e1, -⟩ := head_index_facts t
  unfold iblk4
  rw [View.read_apply]
  show V c main_v58 (((cfg4.win 0).blk t).view.emb (ix2 p k)) = V c main_v58 (ix2 n k)
  refine congrArg _ (funext fun a => Fin.ext ?_)
  match a with
  | ⟨0, _⟩ => show win4_0.index t (0 : Fin 2) * 10000 + 1 * p.val = n.val; rw [e0, hn]; omega
  | ⟨1, _⟩ => show win4_0.index t (1 : Fin 2) * 64 + 1 * k.val = k.val; rw [e1]; omega

/-- Every point's weight block is the whole weight. -/
theorem head_weight_block_apply (c : Dev nD) (t : Fin cfg4.N) (k : Fin 64) :
    (iblk4 (F := Ideal) V c 1 t : Vec Ideal S64x1 .f32) (ix2 k (0 : Fin 1)) = (V c main_arg6 : S64x1.Idx → Elt Ideal .f32) (ix2 k (0 : Fin 1)) := by
  obtain ⟨-, -, e2, e3, -⟩ := head_index_facts t
  unfold iblk4
  rw [View.read_apply]
  show V c main_arg6 (((cfg4.win 1).blk t).view.emb (ix2 k (0 : Fin 1))) = V c main_arg6 (ix2 k (0 : Fin 1))
  refine congrArg _ (funext fun a => Fin.ext ?_)
  match a with
  | ⟨0, _⟩ => show win4_1.index t (0 : Fin 2) * 64 + 1 * k.val = k.val; rw [e2]; omega
  | ⟨1, _⟩ => show win4_1.index t (1 : Fin 2) * 1 + 1 * 0 = 0; rw [e3]

/-- Every point's bias block is the whole 1×1 bias. -/
theorem head_bias_block_apply (c : Dev nD) (t : Fin cfg4.N) :
    (iblk4 (F := Ideal) V c 2 t : Vec Ideal S1x1 .f32) (ix2 (0 : Fin 1) (0 : Fin 1)) = (V c main_v59 : S1x1.Idx → Elt Ideal .f32) (ix2 (0 : Fin 1) (0 : Fin 1)) := by
  obtain ⟨-, -, -, -, e4, e5, -⟩ := head_index_facts t
  unfold iblk4
  rw [View.read_apply]
  show V c main_v59 (((cfg4.win 2).blk t).view.emb (ix2 (0 : Fin 1) (0 : Fin 1))) = V c main_v59 (ix2 (0 : Fin 1) (0 : Fin 1))
  refine congrArg _ (funext fun a => Fin.ext ?_)
  match a with
  | ⟨0, _⟩ => show win4_2.index t (0 : Fin 2) * 1 + 1 * 0 = 0; rw [e4]
  | ⟨1, _⟩ => show win4_2.index t (1 : Fin 2) * 1 + 1 * 0 = 0; rw [e5]

/-- What point t writes back is block t of the linear head of the arrays as the region finds them: the block's payload
    at (p, 0) reads row 10000·t + p of the activations, the whole weight and the one bias entry. -/
theorem head_flushed_eq (c : Dev nD) (b : (⟨Cert.ReferenceIdeal.S1, .f32⟩ : BufTy).Contents (Elt Ideal))
    (hb : V c main_v59 (ix2 (0 : Fin 1) (0 : Fin 1)) = b (ix1 (0 : Fin 1))) (t : Fin cfg4.N) :
    (dat4 (F := Ideal) V c).flushed 3 t
      = ((cfg4.win 3).blk t).view.read (Elt Ideal) (Cert.Gcn.head (V c main_v58) (V c main_arg6) b) := by
  show (cfg4.win 3).cut (grid4.coords t) ((dat4 (F := Ideal) V c).after 3 t) = _
  rw [after4_3]
  unfold out4_3
  rw [View.canon_unit_zero head_zero_offsets]
  simp only [View.ld_unit_zero (S := S10000x64) head_zero_offsets, View.ld_unit_zero (S := S64x1) head_zero_offsets,
    View.ld_unit_zero (S := S1x1) head_zero_offsets]
  obtain ⟨-, -, -, -, -, -, e6, e7⟩ := head_index_facts t
  have hN : cfg4.N = 10 := N_4
  have ht : t.val < 10 := by have := t.isLt; omega
  have key : ∀ j : S10000x1.Idx, k4_pay1 (F := Ideal) (iblk4 V c 0 t) (iblk4 V c 1 t) (iblk4 V c 2 t) j
      = Cert.Gcn.head (V c main_v58) (V c main_arg6) b (((cfg4.win 3).blk t).view.emb j) := by
    intro j
    obtain ⟨p, q, rfl⟩ : ∃ (p : Fin 10000) (q : Fin 1), j = ix2 p q := ⟨j 0, j 1, eq_ix2 j⟩
    obtain rfl : q = 0 := Subsingleton.elim _ _
    have hp : p.val < 10000 := p.isLt
    have hn : t.val * 10000 + p.val < 100000 := by omega
    have hemb : ((cfg4.win 3).blk t).view.emb (ix2 p (0 : Fin 1)) = ix2 (⟨t.val * 10000 + p.val, hn⟩ : Fin 100000) (0 : Fin 1) :=
      funext fun a => Fin.ext (by
        match a with
        | ⟨0, _⟩ => show win4_3.index t (0 : Fin 2) * 10000 + 1 * p.val = t.val * 10000 + p.val; rw [e6]; omega
        | ⟨1, _⟩ => show win4_3.index t (1 : Fin 2) * 1 + 1 * 0 = 0; rw [e7])
    rw [hemb, head_payload_apply, head_apply]
    congr 1
    · exact Finset.sum_congr rfl fun k _ => by
        rw [head_rows_block_apply V c t p k ⟨t.val * 10000 + p.val, hn⟩ rfl, head_weight_block_apply V c t k]
    · rw [head_bias_block_apply V c t, hb]
  exact funext key

/-- An index of the result is in point t's block iff each coordinate is in the block's range on its axis. -/
theorem head_mem_block (t : Fin cfg4.N) (i : S100000x1.Idx) :
    i ∈ ((cfg4.win 3).blk t).view.set ↔ ∀ a : Fin 2, win4_3.index t a * S10000x1.size a ≤ (i a).val
      ∧ (i a).val < win4_3.index t a * S10000x1.size a + S10000x1.size a := by
  show i ∈ ((View.whole main_v60).slice (win4_3.rect t)).set ↔ _
  rw [View.set_slice_whole, Rect.mem_set_unit]
  exact Iff.rfl

/-- The ten row blocks cover the result: row r lies in the block of point r / 10000. -/
theorem head_cover (i : S100000x1.Idx) :
    ∃ t : Fin cfg4.N, (cfg4.win 3).flush t = true ∧ i ∈ ((cfg4.win 3).blk t).view.set := by
  have hN : cfg4.N = 10 := N_4
  have hi0 : (i 0).val < 100000 := (i 0).isLt
  have hi1 : (i 1).val < 1 := (i 1).isLt
  obtain ⟨t, ht⟩ : ∃ t : Fin cfg4.N, t.val = (i 0).val / 10000 := ⟨⟨(i 0).val / 10000, by rw [hN]; omega⟩, rfl⟩
  obtain ⟨-, -, -, -, -, -, e6, e7⟩ := head_index_facts t
  refine ⟨t, flush4_3 t, ?_⟩
  rw [head_mem_block]
  intro a
  match a with
  | ⟨0, _⟩ =>
    show win4_3.index t (0 : Fin 2) * 10000 ≤ (i 0).val ∧ (i 0).val < win4_3.index t (0 : Fin 2) * 10000 + 10000
    rw [e6, ht]; omega
  | ⟨1, _⟩ =>
    show win4_3.index t (1 : Fin 2) * 1 ≤ (i 1).val ∧ (i 1).val < win4_3.index t (1 : Fin 2) * 1 + 1
    rw [e7]; omega

/-- The result array after the region is the linear head of the activations, the weight and the bias: every point writes
    its block of that function, and the blocks cover the array. -/
theorem region4_array (c : Dev nD) (b : (⟨Cert.ReferenceIdeal.S1, .f32⟩ : BufTy).Contents (Elt Ideal))
    (hb : V c main_v59 (ix2 (0 : Fin 1) (0 : Fin 1)) = b (ix1 (0 : Fin 1))) :
    (dat4 (F := Ideal) V c).arrAt 3 cfg4.N = Cert.Gcn.head (V c main_v58) (V c main_arg6) b :=
  (dat4 (F := Ideal) V c).arrAt_eq_of_cover 3 (Cert.Gcn.head (V c main_v58) (V c main_arg6) b)
    (fun t _ => head_flushed_eq V c b hb t) head_cover

end Cert.KernelIdeal.Regions
end
-- ==== Proof.KernelValue.lean ====
/-
  The idealized kernel program's result is the network of its arguments. The fold of buffer contents is read from the
  launch to the return: the first region leaves x · W1; the stretch after it aggregates that along the edges; the
  second region adds the first bias and rectifies, which is the first layer; the third region multiplies by W2; the
  next stretch aggregates again; the fourth region adds the second bias and rectifies, which is the second layer; the
  fifth region is the linear head; the last stretch flattens its column. Each region's output array is its dense
  stage of the arrays the region finds, and every array it finds is either an argument, carried unchanged from the
  launch, or the previous step's output, so the steps compose by substitution.
-/
import proofs.«124524_j4123168604928_1_alg».proof.Proof.KernelBoundaries
import proofs.«124524_j4123168604928_1_alg».proof.Proof.RegionDense
import proofs.«124524_j4123168604928_1_alg».proof.Proof.RegionBiasRelu
import proofs.«124524_j4123168604928_1_alg».proof.Proof.RegionHead

noncomputable section

namespace Cert.KernelIdeal.Result

open Cert.KernelIdeal Cert.KernelIdeal.Gen Cert.KernelIdeal.Boundaries Cert.KernelIdeal.Regions Cert.Gcn
open Idealize.ShloMosaic Idealize.ShloMosaic.TcCoe Idealize.SL.Sem

variable (m : (ℓ : Loc nD τ sig) → Buf (Elt Ideal) ℓ) (ρ : Dev nD → PrngReg) (c : Dev nD)

/-- After the first region: the transformed features x · W1. -/
theorem xw1_at2 : W2 m ρ c (Proc.devRef .tc main_v27) = dense1 (m ((c : Thread nD τ).loc main_arg0)) (m ((c : Thread nD τ).loc main_arg2)) :=
  (W2_arr m ρ c 2).trans ((region0_array (V1 m ρ) c).trans
    (congrArg₂ dense1 (arg0_at1 m ρ c) (arg2_at1 m ρ c)))

/-- After the second region: the first layer's output. -/
theorem h1_at4 : W4 m ρ c (Proc.devRef .tc main_v42) = layer1 (m ((c : Thread nD τ).loc main_arg0)) (m ((c : Thread nD τ).loc main_arg1)) (m ((c : Thread nD τ).loc main_arg2)) (m ((c : Thread nD τ).loc main_arg3)) :=
  (W4_arr m ρ c 2).trans ((region1_array (V3 m ρ) c (m ((c : Thread nD τ).loc main_arg3)) (bias1_at3 m ρ c)).trans
    (congrArg (fun a => biasRelu128 a (m ((c : Thread nD τ).loc main_arg3)))
      ((agg1_at3 m ρ c).trans (congrArg (fun xw => agg128 xw (m ((c : Thread nD τ).loc main_arg1))) (xw1_at2 m ρ c)))))

/-- After the third region: the first layer's output times W2. -/
theorem xw2_at5 : W5 m ρ c (Proc.devRef .tc main_v43)
    = dense2 (layer1 (m ((c : Thread nD τ).loc main_arg0)) (m ((c : Thread nD τ).loc main_arg1)) (m ((c : Thread nD τ).loc main_arg2)) (m ((c : Thread nD τ).loc main_arg3))) (m ((c : Thread nD τ).loc main_arg4)) :=
  (W5_arr m ρ c 2).trans ((region2_array (V4 m ρ) c).trans
    (congrArg₂ dense2 (h1_at4 m ρ c) (arg4_at4 m ρ c)))

/-- After the fourth region: the second layer's output. -/
theorem h2_at7 : W7 m ρ c (Proc.devRef .tc main_v58)
    = layer2 (layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) :=
  (W7_arr m ρ c 2).trans ((region3_array (V6 m ρ) c (m ((c : Thread nD τ).loc main_arg5)) (bias2_at6 m ρ c)).trans
    (congrArg (fun a => biasRelu64 a (m ((c : Thread nD τ).loc main_arg5)))
      ((agg2_at6 m ρ c).trans (congrArg (fun xw => agg64 xw (m ((c : Thread nD τ).loc main_arg1))) (xw2_at5 m ρ c)))))

/-- After the fifth region: the linear head of the second layer's output. -/
theorem head_at9 : W9 m ρ c (Proc.devRef .tc main_v60)
    = head (layer2 (layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) (m ((c : Thread nD τ).loc main_arg7)) :=
  (W9_arr m ρ c 3).trans ((region4_array (V8 m ρ) c (m ((c : Thread nD τ).loc main_arg7)) (bias3_at8 m ρ c)).trans
    (congrArg₂ (fun h w => head h w (m ((c : Thread nD τ).loc main_arg7))) ((hidden_at8 m ρ c).trans (h2_at7 m ρ c)) (arg6_at8 m ρ c)))

/-- At the return: the result buffer holds the network of the launch contents of the eight arguments. -/
theorem kernel_value : W10 m ρ c (Proc.devRef .tc main_v61)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (result_at10 m ρ c).trans
    (congrArg (fun y => shapeCast S100000 y shapeCasts_S100000x1_S100000) (head_at9 m ρ c))

end Cert.KernelIdeal.Result

end
-- ==== Proof.lean ====
/-
  The certificate of a two-layer graph convolution with a linear head: a program whose dense steps (two feature
  transforms, two bias-and-rectifier steps, the head) run as pipelined regions over blocks of 10000 of the 100000
  nodes, against a reference that does the same steps as whole-array host operations; the edge preprocessing and the
  neighbourhood aggregation are the same host operations in both.
  Frames: the two kernel programs' are the generated frames of their ten segments; the reference's is its run with
  the result dropped. Nothing was rewritten when the kernel was idealized, so that conjunct is trivial. Equal results
  over the extended reals: the kernel program's result buffer ends at the network of its arguments (the fold of its
  buffer contents read region by region, each region's output array being its dense stage of the arrays it finds), the
  reference's result is the network of its arguments by unfolding its stages, and the arguments agree. The two sides
  meet without any law that needs finiteness: a block's matrix product into a zero accumulator is the same sum over the
  feature axis as the whole product, and the bias and rectifier are pointwise.
-/
import proofs.«124524_j4123168604928_1_alg».proof.Defs
import proofs.«124524_j4123168604928_1_alg».proof.Proof.Gen.Kernel
import proofs.«124524_j4123168604928_1_alg».proof.Proof.Gen.Kernel.Frame
import proofs.«124524_j4123168604928_1_alg».proof.Proof.Gen.KernelIdeal
import proofs.«124524_j4123168604928_1_alg».proof.Proof.Gen.KernelIdeal.Frame
import proofs.«124524_j4123168604928_1_alg».proof.Proof.Gen.ReferenceIdeal
import proofs.«124524_j4123168604928_1_alg».proof.Proof.Gen.ReferenceIdeal.Run
import proofs.«124524_j4123168604928_1_alg».proof.Proof.Gen.ReferenceIdeal.Read
import proofs.«124524_j4123168604928_1_alg».proof.Proof.Gen.Pre_finite_inputs
import proofs.«124524_j4123168604928_1_alg».proof.Proof.Network
import proofs.«124524_j4123168604928_1_alg».proof.Proof.KernelRun
import proofs.«124524_j4123168604928_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result buffers. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.kernel_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v94_eq, Cert.Gcn.reference_network,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
